-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096x16 .f32) (main_arg6 : FVec F S4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg5
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : IVec S4096x4096 32) (main_arg2 : FVec F S4096x64 .f32) (main_arg3 : FVec F S4096x64 .f32) (main_arg4 : FVec F S16x4096 .f32) (main_arg5 : FVec F S4096x16 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x64 .f32 := Host.absf main_arg3
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S16x4096 .f32 := Host.absf main_arg4
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg5 main_arg6 main_v13 main_v16
-- ==== Kernel.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S8192x16 : Shape := ⟨2, ![8192, 16]⟩
abbrev S64x4096 : Shape := ⟨2, ![64, 4096]⟩
abbrev S1x4096 : Shape := ⟨2, ![1, 4096]⟩
abbrev S2048x512 : Shape := ⟨2, ![2048, 512]⟩
abbrev S1024x512 : Shape := ⟨2, ![1024, 512]⟩
abbrev S64x1024 : Shape := ⟨2, ![64, 1024]⟩
abbrev S2048x16 : Shape := ⟨2, ![2048, 16]⟩
abbrev S1024x16 : Shape := ⟨2, ![1024, 16]⟩
abbrev S1x1024 : Shape := ⟨2, ![1, 1024]⟩
abbrev S2048x1024 : Shape := ⟨2, ![2048, 1024]⟩
abbrev S8x1024 : Shape := ⟨2, ![8, 1024]⟩
abbrev S1024x8 : Shape := ⟨2, ![1024, 8]⟩
abbrev S1024x8x64 : Shape := ⟨3, ![1024, 8, 64]⟩
abbrev S1024x8x1 : Shape := ⟨3, ![1024, 8, 1]⟩

abbrev nBuf : Space → Nat
  | .hbm => 15
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S4096x64, .f32⟩
  | .hbm, ⟨4, _⟩ => ⟨S16x4096, .f32⟩
  | .hbm, ⟨5, _⟩ => ⟨S4096x16, .f32⟩
  | .hbm, ⟨6, _⟩ => ⟨S4096, .f32⟩
  | .hbm, ⟨7, _⟩ => ⟨S8192x4096, .f32⟩
  | .hbm, ⟨8, _⟩ => ⟨S8192x16, .f32⟩
  | .hbm, ⟨9, _⟩ => ⟨S8192x4096, .bf16⟩
  | .hbm, ⟨10, _⟩ => ⟨S64x4096, .f32⟩
  | .hbm, ⟨11, _⟩ => ⟨S64x4096, .f32⟩
  | .hbm, ⟨12, _⟩ => ⟨S1x4096, .f32⟩
  | .hbm, ⟨13, _⟩ => ⟨S8192x4096, .f32⟩
  | .hbm, ⟨14, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .i32⟩
  | .local _ .vmem, ⟨3, _⟩ => ⟨S1024x512, .i32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S2048x16, .f32⟩
  | .local _ .vmem, ⟨9, _⟩ => ⟨S2048x16, .f32⟩
  | .local _ .vmem, ⟨10, _⟩ => ⟨S1024x16, .f32⟩
  | .local _ .vmem, ⟨11, _⟩ => ⟨S1024x16, .f32⟩
  | .local _ .vmem, ⟨12, _⟩ => ⟨S1x1024, .f32⟩
  | .local _ .vmem, ⟨13, _⟩ => ⟨S1x1024, .f32⟩
  | .local _ .vmem, ⟨14, _⟩ => ⟨S2048x1024, .f32⟩
  | .local _ .vmem, ⟨15, _⟩ => ⟨S2048x1024, .f32⟩
  | .local _ .vmem, ⟨16, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c8_i32 : BitVec 32 := 8#32
  let v6 : BitVec 32 := Scalar.muli arg2 c8_i32
  v6
def k0_off1 (i : grid0.Coords) : Fin 2 → Nat :=
  let arg2 : BitVec 32 := BitVec.ofNat 32 (i 2).val
  let c8_i32 : BitVec 32 := 8#32
  let v6 : BitVec 32 := Scalar.muli arg2 c8_i32
  let v7 : BitVec 32 := v6
  let v8 : Index := Scalar.indexCast v7
  let c0_4 : Index := 0#32
  ![v8.toNat, 0]
def k0_cond2 (i : grid0.Coords) : BitVec 1 :=
  let arg2 : BitVec 32 := BitVec.ofNat 32 (i 2).val
  let c7_i32 : BitVec 32 := 7#32
  let v32 : BitVec 1 := Scalar.cmpi .eq arg2 c7_i32
  let v33 : BitVec 32 := Scalar.extui v32
  let c0_i32_10 : BitVec 32 := 0#32
  let v34 : BitVec 1 := Scalar.cmpi .ne v33 c0_i32_10
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4x2048x4096_S8192x4096 : S4x2048x4096.ShapeCasts S8192x4096
  bitsLt_bf16_f32 : FTy.bits .bf16 < FTy.bits .f32
  transposes_S4096x64_S64x4096_1_0 : S4096x64.Transposes [1, 0] S64x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  h_S8x1024 : 0 < S8x1024.numel
  shapeCasts_S8x1024_S8x1024 : S8x1024.ShapeCasts S8x1024
  transposes_S8x1024_p1_0_S1024x8 : S8x1024.Transposes [1, 0] S1024x8
  shapeCasts_S1024x512_S1024x8x64 : S1024x512.ShapeCasts S1024x8x64
  shapeCasts_S1024x8_S1024x8x1 : S1024x8.ShapeCasts S1024x8x1
  broadcasts_S1024x8x1_S1024x8x64 : S1024x8x1.Broadcasts S1024x8x64
  shapeCasts_S1024x8x64_S1024x512 : S1024x8x64.ShapeCasts S1024x512
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S1024x16_S1024x16_0_0 : ∀ a, (![0, 0] : Fin 2 → Nat) a + S1024x16.size a ≤ S1024x16.size a
  h_S1024x16 : 0 < S1024x16.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S8192x4096_S16x4096_S8192x16_1_1_0_0_n_n_wf : DotDims.WF S8192x4096 S16x4096 S8192x16 [1] [1] [0] [0] [] []
  dot_S2048x512_S1024x512_S2048x1024_1_1_0_0_n_n_wf : DotDims.WF S2048x512 S1024x512 S2048x1024 [1] [1] [0] [0] [] []
  dot_S2048x16_S1024x16_S2048x1024_1_1_0_0_n_n_wf : DotDims.WF S2048x16 S1024x16 S2048x1024 [1] [1] [0] [0] [] []
  hrank0 : 0 < grid0.rank
  k0_mult1_dvd : ∀ i : grid0.Coords, 8 ∣ (k0_mult1 i).toNat
  k0_off1_inb : ∀ i : grid0.Coords, ∀ a, (k0_off1 i) a + S8x1024.size a ≤ S64x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x4096.size a
  hwx0_2 : ∀ i : grid0.Coords, EltTy.bits .f32 = 32 ∨ (Rect.block (s := S64x4096) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x4096.size a
  hwx0_3 : ∀ i : grid0.Coords, EltTy.bits .f32 = 32 ∨ (Rect.block (s := S64x4096) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x16.size a ≤ S8192x16.size a
  hwx0_4 : ∀ i : grid0.Coords, EltTy.bits .f32 = 32 ∨ (Rect.block (s := S8192x16) S2048x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x16.size a ≤ S4096x16.size a
  hwx0_5 : ∀ i : grid0.Coords, EltTy.bits .f32 = 32 ∨ (Rect.block (s := S4096x16) S1024x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1024.size a ≤ S8192x4096.size a
  hwx0_7 : ∀ i : grid0.Coords, EltTy.bits .f32 = 32 ∨ (Rect.block (s := S8192x4096) S2048x1024.size (cc0_transform_7 i) (hinb0_7 i)).WholeWords (EltTy.packing .f32)

variable [Facts₀]

def dot_S8192x4096_S16x4096_S8192x16_1_1_0_0_n_n : DotDims S8192x4096 S16x4096 S8192x16 where
  lhsContracting := [1]
  rhsContracting := [1]
  lhsNonContracting := [0]
  rhsNonContracting := [0]
  lhsBatch := []
  rhsBatch := []
  wf := dot_S8192x4096_S16x4096_S8192x16_1_1_0_0_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf
def dot_S2048x16_S1024x16_S2048x1024_1_1_0_0_n_n : DotDims S2048x16 S1024x16 S2048x1024 where
  lhsContracting := [1]
  rhsContracting := [1]
  lhsNonContracting := [0]
  rhsNonContracting := [0]
  lhsBatch := []
  rhsBatch := []
  wf := dot_S2048x16_S1024x16_S2048x1024_1_1_0_0_n_n_wf

abbrev win0_0 : Pipeline.Window sig grid0 :=
  Pipeline.Window.ofSpec (Memref.whole main_v2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S2048x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S4096 : Shape := ⟨1, ![4096]⟩
abbrev S4096x64x64 : Shape := ⟨3, ![4096, 64, 64]⟩
abbrev S4096x64x1 : Shape := ⟨3, ![4096, 64, 1]⟩
abbrev S4x2048x16 : Shape := ⟨3, ![4, 2048, 16]⟩
abbrev S_ : Shape := ⟨0, ![]⟩
abbrev S1x1x4096 : Shape := ⟨3, ![1, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S4096x64, .f32⟩
  | .hbm, ⟨4, _⟩ => ⟨S16x4096, .f32⟩
  | .hbm, ⟨5, _⟩ => ⟨S4096x16, .f32⟩
  | .hbm, ⟨6, _⟩ => ⟨S4096, .f32⟩
  | .hbm, ⟨7, _⟩ => ⟨S4096x4096, .f32⟩
  | .hbm, ⟨8, _⟩ => ⟨S4096x64x64, .f32⟩
  | .hbm, ⟨9, _⟩ => ⟨S4096x64x1, .f32⟩
  | .hbm, ⟨10, _⟩ => ⟨S4096x64x64, .f32⟩
  | .hbm, ⟨11, _⟩ => ⟨S4096x64x64, .f32⟩
  | .hbm, ⟨12, _⟩ => ⟨S4096x64x1, .f32⟩
  | .hbm, ⟨13, _⟩ => ⟨S4096x64x64, .f32⟩
  | .hbm, ⟨14, _⟩ => ⟨S4096x64x64, .f32⟩
  | .hbm, ⟨15, _⟩ => ⟨S4096x4096, .f32⟩
  | .hbm, ⟨16, _⟩ => ⟨S4x2048x4096, .f32⟩
  | .hbm, ⟨17, _⟩ => ⟨S4x2048x16, .f32⟩
  | .hbm, ⟨18, _⟩ => ⟨S4x2048x4096, .f32⟩
  | .hbm, ⟨19, _⟩ => ⟨S_, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S1x1x4096, .f32⟩
  | .hbm, ⟨24, _⟩ => ⟨S4x2048x4096, .f32⟩
  | .hbm, ⟨25, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  shapeCasts_S4096x4096_S4096x64x64 : S4096x4096.ShapeCasts S4096x64x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Pieces.lean ====
/-
  What each control case of the kernel body leaves behind, as values.

  The body runs in three cases over the reduction coordinate k of the grid (4 x 4 x 8): at k = 0 it zeroes the
  accumulator and adds the first partial product; at 0 < k < 7 it adds the k-th partial product to what the point
  before left; at k = 7 it adds the last partial product and then stores the output block, computed from the
  accumulator it has just written.  Each case's stores cover the buffer they touch, so what the buffer holds
  afterwards is the payload of the last store: the accumulator is the partial-product payload over the blocks the
  point loads (the scale and zero-point rows through the eight-row rectangle the point's k selects), and the
  output block is the epilogue payload over that accumulator.  Stated for any float instance.
-/
import proofs.«135139_j31705448579867_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- The eight rows of a [64, 1024] block of transposed scales (or zero points) that grid point `i` uses: rows
    8k … 8k + 7 for its reduction coordinate k. -/
abbrev rows (i : grid0.Coords) (x : Vec F S64x1024 .f32) : Vec F S8x1024 .f32 :=
  View.ld x (Rect.unit (s := S64x1024) (k0_off1 i) S8x1024.size (k0_off1_inb i))

/-- The partial product a point adds: the payload of the accumulator's store over the point's blocks. -/
abbrev step (i : grid0.Coords) (x0 : Vec F S2048x512 .bf16) (x1 : Vec F S1024x512 .i32) (x2 x3 : Vec F S64x1024 .f32)
    (acc : Vec F S2048x1024 .f32) : Vec F S2048x1024 .f32 :=
  k0_pay2 x0 x1 (rows i x2) (rows i x3) acc

/-- k = 0: the accumulator is zeroed, read back, and left at zero plus the first partial product. -/
theorem scratch_A (c : Dev nD) (i : grid0.Coords) (arg3 : Memref sig .tc .vmem S2048x512 .bf16) (harg3 : arg3.IsWhole) (arg4 : Memref sig .tc .vmem S1024x512 .i32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S2048x16 .f32) (harg7 : arg7.IsWhole) (arg8 : Memref sig .tc .vmem S1024x16 .f32) (harg8 : arg8.IsWhole) (arg9 : Memref sig .tc .vmem S1x1024 .f32) (harg9 : arg9.IsWhole) (arg10 : Memref sig .tc .vmem S2048x1024 .f32) (harg10 : arg10.IsWhole) (arg11 : Memref sig .tc .vmem S2048x1024 .f32) (harg11 : arg11.IsWhole) (hc0 : cond0_0 i) (hc1 : ¬cond0_1 i)
    (x0 : Vec F S2048x512 .bf16) (x1 : Vec F S1024x512 .i32) (x2 : Vec F S64x1024 .f32) (x3 : Vec F S64x1024 .f32) (x4 : Vec F S2048x16 .f32) (x5 : Vec F S1024x16 .f32) (x6 : Vec F S1x1024 .f32) :
    sout0_A_0 c i arg3 harg3 arg4 harg4 arg5 harg5 arg6 harg6 arg7 harg7 arg8 harg8 arg9 harg9 arg10 harg10 arg11 harg11 hc0 hc1 x0 x1 x2 x3 x4 x5 x6 = step i x0 x1 x2 x3 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S2048x1024) hz]
  simp only [View.readCov_unit_zero (S := S2048x1024) _ hz, View.readAt_eq_ld, harg3.read_unread, harg4.read_unread, harg5.read_unread,
    harg6.read_unread, View.ld_unit_zero (S := S2048x512) hz, View.ld_unit_zero (S := S1024x512) hz]
  rfl

/-- 0 < k < 7: the accumulator is left at what the point before left plus this point's partial product. -/
theorem scratch_B (c : Dev nD) (i : grid0.Coords) (arg3 : Memref sig .tc .vmem S2048x512 .bf16) (harg3 : arg3.IsWhole) (arg4 : Memref sig .tc .vmem S1024x512 .i32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S2048x16 .f32) (harg7 : arg7.IsWhole) (arg8 : Memref sig .tc .vmem S1024x16 .f32) (harg8 : arg8.IsWhole) (arg9 : Memref sig .tc .vmem S1x1024 .f32) (harg9 : arg9.IsWhole) (arg10 : Memref sig .tc .vmem S2048x1024 .f32) (harg10 : arg10.IsWhole) (arg11 : Memref sig .tc .vmem S2048x1024 .f32) (harg11 : arg11.IsWhole) (hc0 : ¬cond0_0 i) (hc1 : ¬cond0_1 i)
    (x0 : Vec F S2048x512 .bf16) (x1 : Vec F S1024x512 .i32) (x2 : Vec F S64x1024 .f32) (x3 : Vec F S64x1024 .f32) (x4 : Vec F S2048x16 .f32) (x5 : Vec F S1024x16 .f32) (x6 : Vec F S1x1024 .f32) (xs0 : Vec F S2048x1024 .f32) :
    sout0_B_0 c i arg3 harg3 arg4 harg4 arg5 harg5 arg6 harg6 arg7 harg7 arg8 harg8 arg9 harg9 arg10 harg10 arg11 harg11 hc0 hc1 x0 x1 x2 x3 x4 x5 x6 xs0 = step i x0 x1 x2 x3 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  rw [View.canon_unit_zero hz]
  simp only [View.readAt_eq_ld, harg3.read_unread, harg4.read_unread, harg5.read_unread, harg6.read_unread, harg11.read_unread,
    View.ld_unit_zero (S := S2048x512) hz, View.ld_unit_zero (S := S1024x512) hz, View.ld_unit_zero (S := S2048x1024) hz]

/-- k = 7: the accumulator, as for the middle points. -/
theorem scratch_C (c : Dev nD) (i : grid0.Coords) (arg3 : Memref sig .tc .vmem S2048x512 .bf16) (harg3 : arg3.IsWhole) (arg4 : Memref sig .tc .vmem S1024x512 .i32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S2048x16 .f32) (harg7 : arg7.IsWhole) (arg8 : Memref sig .tc .vmem S1024x16 .f32) (harg8 : arg8.IsWhole) (arg9 : Memref sig .tc .vmem S1x1024 .f32) (harg9 : arg9.IsWhole) (arg10 : Memref sig .tc .vmem S2048x1024 .f32) (harg10 : arg10.IsWhole) (arg11 : Memref sig .tc .vmem S2048x1024 .f32) (harg11 : arg11.IsWhole) (hc0 : ¬cond0_0 i) (hc1 : cond0_1 i)
    (x0 : Vec F S2048x512 .bf16) (x1 : Vec F S1024x512 .i32) (x2 : Vec F S64x1024 .f32) (x3 : Vec F S64x1024 .f32) (x4 : Vec F S2048x16 .f32) (x5 : Vec F S1024x16 .f32) (x6 : Vec F S1x1024 .f32) (xs0 : Vec F S2048x1024 .f32) :
    sout0_C_0 c i arg3 harg3 arg4 harg4 arg5 harg5 arg6 harg6 arg7 harg7 arg8 harg8 arg9 harg9 arg10 harg10 arg11 harg11 hc0 hc1 x0 x1 x2 x3 x4 x5 x6 xs0 = step i x0 x1 x2 x3 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [View.readAt_eq_ld, harg3.read_unread, harg4.read_unread, harg5.read_unread, harg6.read_unread, harg11.read_unread,
    View.ld_unit_zero (S := S2048x512) hz, View.ld_unit_zero (S := S1024x512) hz, View.ld_unit_zero (S := S2048x1024) hz]
  rfl

/-- k = 7: the output block is the epilogue payload over the low-rank blocks, the bias row and the accumulator the
    point has just stored. -/
theorem out_C (c : Dev nD) (i : grid0.Coords) (arg3 : Memref sig .tc .vmem S2048x512 .bf16) (harg3 : arg3.IsWhole) (arg4 : Memref sig .tc .vmem S1024x512 .i32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S2048x16 .f32) (harg7 : arg7.IsWhole) (arg8 : Memref sig .tc .vmem S1024x16 .f32) (harg8 : arg8.IsWhole) (arg9 : Memref sig .tc .vmem S1x1024 .f32) (harg9 : arg9.IsWhole) (arg10 : Memref sig .tc .vmem S2048x1024 .f32) (harg10 : arg10.IsWhole) (arg11 : Memref sig .tc .vmem S2048x1024 .f32) (harg11 : arg11.IsWhole) (hc0 : ¬cond0_0 i) (hc1 : cond0_1 i)
    (x0 : Vec F S2048x512 .bf16) (x1 : Vec F S1024x512 .i32) (x2 : Vec F S64x1024 .f32) (x3 : Vec F S64x1024 .f32) (x4 : Vec F S2048x16 .f32) (x5 : Vec F S1024x16 .f32) (x6 : Vec F S1x1024 .f32) (xs0 : Vec F S2048x1024 .f32) :
    out0_C_7 c i arg3 harg3 arg4 harg4 arg5 harg5 arg6 harg6 arg7 harg7 arg8 harg8 arg9 harg9 arg10 harg10 arg11 harg11 hc0 hc1 x0 x1 x2 x3 x4 x5 x6 xs0 = k0_pay3 x4 x5 x6 (step i x0 x1 x2 x3 xs0) := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [View.readCov_unit_zero (S := S2048x1024) _ hz, View.readAt_eq_ld, harg3.read_unread, harg4.read_unread, harg5.read_unread,
    harg6.read_unread, harg7.read_unread, harg8.read_unread, harg9.read_unread, harg11.read_unread,
    View.ld_unit_zero (S := S2048x512) hz, View.ld_unit_zero (S := S1024x512) hz, View.ld_unit_zero (S := S2048x1024) hz,
    View.ld_unit_zero (S := S2048x16) hz, View.ld_unit_zero (S := S1024x16) hz, View.ld_unit_zero (S := S1x1024) hz]
  rfl

end Cert.KernelIdeal.Pieces
end
-- ==== Proof.Payload.lean ====
/-
  The two payloads of the kernel body, read at one entry (p, q) of the [2048, 1024] tile, on the extended reals.

  The accumulator's payload adds to the accumulator, at (p, q), the sum over the 512 columns j of the activation
  tile's entry (p, j) times the dequantized weight (code(q, j) - zero(g, q)) * scale(g, q), where g = j / 64 is the
  quantization group of column j and the scale and zero-point rows arrive transposed, as [8, 1024] slabs: the
  three-axis view [1024, 8, 64] of the tile, the unit axis added to the slabs and its broadcast along the 64
  columns of a group are re-indexings, and the narrowing of both matmul operands is the identity on exact values.
  The epilogue's payload adds to the accumulator 1/16 (the word 0x3D800000) times the rank-16 product of the
  projected activations with the second low-rank factor, and then the bias row.
-/
import proofs.«135139_j31705448579867_2_alg».proof.Proof.Gen.KernelIdeal.Skeleton
import Idealize.ShloMosaic.Lib.Pipeline.Value
import Idealize.ShloMosaic.Lib.ValueIdx
import Idealize.ShloMosaic.PureOps.Ideal.Laws

noncomputable section
open Idealize.ShloMosaic Idealize.ShloMosaic.ValueIdx

namespace Cert.KernelIdeal.Payload
open Cert.KernelIdeal Cert.KernelIdeal.Gen

/-- The quantization group, among the eight of a 512-column tile, of column `j`. -/
abbrev grp (j : Fin 512) : Fin 8 := ⟨j.val / 64, by have := j.isLt; omega⟩
/-- Column `j`'s place inside its group. -/
abbrev lane (j : Fin 512) : Fin 64 := ⟨j.val % 64, Nat.mod_lt _ (by decide)⟩

/-! ## The two products -/

theorem lhs0_tile (i : S2048x1024.Idx) (k : dot_S2048x512_S1024x512_S2048x1024_1_1_0_0_n_n.contr.Idx) : (dot_S2048x512_S1024x512_S2048x1024_1_1_0_0_n_n.lhsIdx i k 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem rhs0_tile (i : S2048x1024.Idx) (k : dot_S2048x512_S1024x512_S2048x1024_1_1_0_0_n_n.contr.Idx) : (dot_S2048x512_S1024x512_S2048x1024_1_1_0_0_n_n.rhsIdx i k 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl

/-- A product of a [2048, 512] block with the transpose of a [1024, 512] block into the zero accumulator, read at
    (p, q): the sum over the 512 shared columns of the two rows' products. -/
theorem matmul_tile_apply {φ₁ φ₂ : FTy} (l : FVec Ideal S2048x512 φ₁) (r : FVec Ideal S1024x512 φ₂) (p : Fin 2048) (q : Fin 1024) :
    matmul dot_S2048x512_S1024x512_S2048x1024_1_1_0_0_n_n none l r (constant (F := Ideal) S2048x1024 .f32 0x00000000#32) (ix2 p q)
      = ∑ j : Fin 512, l (ix2 p j) * r (ix2 q j) := by
  simp only [matmul]
  rw [Ideal.matmul_constant_zero_apply, ← Equiv.sum_comp (ValueIdx.contrEquiv1 dot_S2048x512_S1024x512_S2048x1024_1_1_0_0_n_n 512 rfl rfl).symm]
  refine Finset.sum_congr rfl fun k _ => ?_
  have hk := ValueIdx.contrEquiv1_symm_val dot_S2048x512_S1024x512_S2048x1024_1_1_0_0_n_n 512 rfl rfl k
  have el : dot_S2048x512_S1024x512_S2048x1024_1_1_0_0_n_n.lhsIdx (ix2 p q) ((ValueIdx.contrEquiv1 dot_S2048x512_S1024x512_S2048x1024_1_1_0_0_n_n 512 rfl rfl).symm k) = ix2 p k := funext fun a => Fin.ext (by
    match a with
    | ⟨0, _⟩ => exact lhs0_tile _ _
    | ⟨1, _⟩ => exact (dot_S2048x512_S1024x512_S2048x1024_1_1_0_0_n_n.lhsIdx_val_of_single rfl _ _).trans hk)
  have er : dot_S2048x512_S1024x512_S2048x1024_1_1_0_0_n_n.rhsIdx (ix2 p q) ((ValueIdx.contrEquiv1 dot_S2048x512_S1024x512_S2048x1024_1_1_0_0_n_n 512 rfl rfl).symm k) = ix2 q k := funext fun a => Fin.ext (by
    match a with
    | ⟨0, _⟩ => exact rhs0_tile _ _
    | ⟨1, _⟩ => exact (dot_S2048x512_S1024x512_S2048x1024_1_1_0_0_n_n.rhsIdx_val_of_single rfl _ _).trans hk)
  rw [el, er]

theorem lhs0_lowrank (i : S2048x1024.Idx) (k : dot_S2048x16_S1024x16_S2048x1024_1_1_0_0_n_n.contr.Idx) : (dot_S2048x16_S1024x16_S2048x1024_1_1_0_0_n_n.lhsIdx i k 0).val = (i 0).val := by
  unfold DotDims.lhsIdx
  rw [dif_neg (show ¬(0 : Fin S2048x16.rank) ∈ dot_S2048x16_S1024x16_S2048x1024_1_1_0_0_n_n.lhsBatch by decide), dif_pos (show (0 : Fin S2048x16.rank) ∈ dot_S2048x16_S1024x16_S2048x1024_1_1_0_0_n_n.lhsNonContracting by decide)]
  rfl
theorem rhs0_lowrank (i : S2048x1024.Idx) (k : dot_S2048x16_S1024x16_S2048x1024_1_1_0_0_n_n.contr.Idx) : (dot_S2048x16_S1024x16_S2048x1024_1_1_0_0_n_n.rhsIdx i k 0).val = (i 1).val := by
  unfold DotDims.rhsIdx
  rw [dif_neg (show ¬(0 : Fin S1024x16.rank) ∈ dot_S2048x16_S1024x16_S2048x1024_1_1_0_0_n_n.rhsBatch by decide), dif_pos (show (0 : Fin S1024x16.rank) ∈ dot_S2048x16_S1024x16_S2048x1024_1_1_0_0_n_n.rhsNonContracting by decide)]
  rfl

/-- A product of a [2048, 16] block with the transpose of a [1024, 16] block into the zero accumulator, read at
    (p, q): the sum over the 16 shared columns of the two rows' products. -/
theorem matmul_lowrank_apply {φ₁ φ₂ : FTy} (l : FVec Ideal S2048x16 φ₁) (r : FVec Ideal S1024x16 φ₂) (p : Fin 2048) (q : Fin 1024) :
    matmul dot_S2048x16_S1024x16_S2048x1024_1_1_0_0_n_n none l r (constant (F := Ideal) S2048x1024 .f32 0x00000000#32) (ix2 p q)
      = ∑ j : Fin 16, l (ix2 p j) * r (ix2 q j) := by
  simp only [matmul]
  rw [Ideal.matmul_constant_zero_apply, ← Equiv.sum_comp (ValueIdx.contrEquiv1 dot_S2048x16_S1024x16_S2048x1024_1_1_0_0_n_n 16 rfl rfl).symm]
  refine Finset.sum_congr rfl fun k _ => ?_
  have hk := ValueIdx.contrEquiv1_symm_val dot_S2048x16_S1024x16_S2048x1024_1_1_0_0_n_n 16 rfl rfl k
  have el : dot_S2048x16_S1024x16_S2048x1024_1_1_0_0_n_n.lhsIdx (ix2 p q) ((ValueIdx.contrEquiv1 dot_S2048x16_S1024x16_S2048x1024_1_1_0_0_n_n 16 rfl rfl).symm k) = ix2 p k := funext fun a => Fin.ext (by
    match a with
    | ⟨0, _⟩ => exact lhs0_lowrank _ _
    | ⟨1, _⟩ => exact (dot_S2048x16_S1024x16_S2048x1024_1_1_0_0_n_n.lhsIdx_val_of_single rfl _ _).trans hk)
  have er : dot_S2048x16_S1024x16_S2048x1024_1_1_0_0_n_n.rhsIdx (ix2 p q) ((ValueIdx.contrEquiv1 dot_S2048x16_S1024x16_S2048x1024_1_1_0_0_n_n 16 rfl rfl).symm k) = ix2 q k := funext fun a => Fin.ext (by
    match a with
    | ⟨0, _⟩ => exact rhs0_lowrank _ _
    | ⟨1, _⟩ => exact (dot_S2048x16_S1024x16_S2048x1024_1_1_0_0_n_n.rhsIdx_val_of_single rfl _ _).trans hk)
  rw [el, er]

/-! ## The re-indexings of the dequantization -/

variable {α : Type}

/-- The [1024, 8, 64] view flattened back to [1024, 512]: column j is (group j / 64, place j % 64). -/
theorem flatten_apply (x : S1024x8x64.Idx → α) (h : S1024x8x64.ShapeCasts S1024x512) (q : Fin 1024) (j : Fin 512) :
    shapeCast S1024x512 x h (ix2 q j) = x (ix3 q (grp j) (lane j)) :=
  shapeCast_apply x h _ _ (by
    rewrite [Shape.rowMajor_val_three, Shape.rowMajor_val_two]
    show (q.val * 8 + j.val / 64) * 64 + j.val % 64 = q.val * 512 + j.val
    have := j.isLt; omega)

/-- The [1024, 512] tile viewed as [1024, 8, 64]: (q, g, l) is column 64 g + l of row q. -/
theorem groups_apply (x : S1024x512.Idx → α) (h : S1024x512.ShapeCasts S1024x8x64) (q : Fin 1024) (j : Fin 512) :
    shapeCast S1024x8x64 x h (ix3 q (grp j) (lane j)) = x (ix2 q j) :=
  shapeCast_apply x h _ _ (by
    rewrite [Shape.rowMajor_val_two, Shape.rowMajor_val_three]
    show q.val * 512 + j.val = (q.val * 8 + j.val / 64) * 64 + j.val % 64
    have := j.isLt; omega)

/-- A unit axis added after the group axis. -/
theorem unit_apply (x : S1024x8.Idx → α) (h : S1024x8.ShapeCasts S1024x8x1) (q : Fin 1024) (g : Fin 8) (u : Fin 1) :
    shapeCast S1024x8x1 x h (ix3 q g u) = x (ix2 q g) :=
  shapeCast_apply x h _ _ (by
    rewrite [Shape.rowMajor_val_two, Shape.rowMajor_val_three]
    show q.val * 8 + g.val = (q.val * 8 + g.val) * 1 + u.val
    have := u.isLt; omega)

/-- That unit axis broadcast along a group's 64 columns. -/
theorem along_apply (x : S1024x8x1.Idx → α) (h : S1024x8x1.Broadcasts S1024x8x64) (q : Fin 1024) (g : Fin 8) (l : Fin 64) :
    broadcastTo S1024x8x64 x h (ix3 q g l) = x (ix3 q g 0) :=
  broadcastTo_apply x h _ _ (fun a => match a with
    | ⟨0, _⟩ => by show q.val = if (1024 : Nat) = 1 then 0 else q.val; rw [if_neg (by decide)]
    | ⟨1, _⟩ => by show g.val = if (8 : Nat) = 1 then 0 else g.val; rw [if_neg (by decide)]
    | ⟨2, _⟩ => by show 0 = if (1 : Nat) = 1 then 0 else l.val; rw [if_pos rfl])

/-- The [8, 1024] slab transposed. -/
theorem swap_apply (x : S8x1024.Idx → α) (h : S8x1024.Transposes [1, 0] S1024x8) (q : Fin 1024) (g : Fin 8) :
    transpose S1024x8 [1, 0] x h (ix2 q g) = x (ix2 g q) :=
  transpose_apply [1, 0] x h _ _ (fun b => match b with | ⟨0, _⟩ => rfl | ⟨1, _⟩ => rfl)

/-- The bias row broadcast down the 2048 rows. -/
theorem down_apply (x : S1x1024.Idx → α) (h : S1x1024.Broadcasts S2048x1024) (p : Fin 2048) (q : Fin 1024) :
    broadcastTo S2048x1024 x h (ix2 p q) = x (ix2 0 q) :=
  broadcastTo_apply x h _ _ (fun a => match a with
    | ⟨0, _⟩ => by show 0 = if (1 : Nat) = 1 then 0 else p.val; rw [if_pos rfl]
    | ⟨1, _⟩ => by show q.val = if (1024 : Nat) = 1 then 0 else q.val; rw [if_neg (by decide)])

/-! ## The payloads at an entry -/

/-- The dequantized weight of row `q`, column `j` of the tile, from the integer code and the group's zero point and scale. -/
abbrev weight (v5 : Vec Ideal S1024x512 .i32) (v9 v12 : Vec Ideal S8x1024 .f32) (q : Fin 1024) (j : Fin 512) : EReal :=
  (FloatOps.sitofp (F := Ideal) .f32 (v5 (ix2 q j)) - v12 (ix2 (grp j) q)) * v9 (ix2 (grp j) q)

theorem partial_apply (v3 : Vec Ideal S2048x512 .bf16) (v5 : Vec Ideal S1024x512 .i32) (v9 v12 : Vec Ideal S8x1024 .f32)
    (v27 : Vec Ideal S2048x1024 .f32) (p : Fin 2048) (q : Fin 1024) :
    k0_pay2 v3 v5 v9 v12 v27 (ix2 p q) = v27 (ix2 p q) + ∑ j : Fin 512, v3 (ix2 p j) * weight v5 v9 v12 q j := by
  unfold k0_pay2
  simp only [shapeCast_self]
  rw [addf_apply, matmul_tile_apply]
  refine congrArg (v27 (ix2 p q) + ·) (Finset.sum_congr rfl fun j _ => ?_)
  refine congrArg (v3 (ix2 p j) * ·) ?_
  rw [truncf_apply, flatten_apply, mulf_apply, subf_apply, groups_apply, along_apply, along_apply, unit_apply, unit_apply,
    swap_apply, swap_apply, sitofp_apply]

theorem epilogue_apply (v35 : Vec Ideal S2048x16 .f32) (v37 : Vec Ideal S1024x16 .f32) (v39 : Vec Ideal S1x1024 .f32)
    (v41 : Vec Ideal S2048x1024 .f32) (p : Fin 2048) (q : Fin 1024) :
    k0_pay3 v35 v37 v39 v41 (ix2 p q)
      = (v41 (ix2 p q) + Ideal.ofBits .f32 0x3D800000#32 * ∑ r : Fin 16, v35 (ix2 p r) * v37 (ix2 q r)) + v39 (ix2 0 q) := by
  unfold k0_pay3
  simp only [shapeCast_self]
  rw [addf_apply, addf_apply, mulf_apply, matmul_lowrank_apply, down_apply, broadcast_apply]
  rfl

/-- The zero block the first point of a run stores: every entry is the real number 0. -/
theorem zero_apply (y : S2048x1024.Idx) : k0_pay1 (F := Ideal) y = 0 := by
  unfold k0_pay1
  simp only [shapeCast_self]
  rw [broadcast_apply]
  exact Ideal.ofBits_zero_f32

end Cert.KernelIdeal.Payload
end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.Spec.lean ====
/-
  The value both programs compute, as one function of the argument arrays, and the index arithmetic of the tiling.

  With x : [4, 2048, 4096], integer codes Q : [4096, 4096], per-group scales and zero points [4096, 64] (group g of
  row o covers columns 64 g … 64 g + 63), low-rank factors A : [16, 4096], B : [4096, 16] and bias : [4096], the
  result at (b, s, o) is

      ( Σᵢ x(b,s,i) · ((Q(o,i) − zero(o, i/64)) · scale(o, i/64))  +  1/16 · Σᵣ (Σᵢ x(b,s,i) · A(r,i)) · B(o,r) )  +  bias(o)

  on the extended reals, the two sums over i < 4096 and r < 16 and the additions grouped as written; 1/16 is the
  word 0x3D800000.  The kernel works on the rows (b, s) flattened to R = 2048 b + s < 8192, on the scale and zero
  tables transposed to [64, 4096], on the projection x·Aᵀ computed beforehand, and in tiles: rows 2048 a + p,
  columns 1024 b + q of the output, and the 4096 inner columns in eight runs 512 k + j.  Splitting the inner sum
  into those eight runs uses only commutativity and associativity of addition, which hold on the extended reals
  without any finiteness assumption.
-/
import Idealize.ShloMosaic.PureOps.Ideal
import Idealize.ShloMosaic.Lib.ValueIdx
import proofs.«135139_j31705448579867_2_alg».proof.Proof.LibBlockSum

noncomputable section
open Idealize.ShloMosaic Idealize.ShloMosaic.ValueIdx

namespace Cert.Spec

/-! ## Indices of the tiling -/

/-- Row `p` of row tile `a`, among the 8192 flattened rows. -/
abbrev gRow (a : Fin 4) (p : Fin 2048) : Fin 8192 := ⟨a.val * 2048 + p.val, by omega⟩
/-- Column `q` of column tile `b`, among the 4096 output columns. -/
abbrev gCol (b : Fin 4) (q : Fin 1024) : Fin 4096 := ⟨b.val * 1024 + q.val, by omega⟩
/-- Inner column `j` of run `k`, among the 4096 inner columns. -/
abbrev gK (k : Fin 8) (j : Fin 512) : Fin 4096 := ⟨k.val * 512 + j.val, by omega⟩
/-- Group `g` of run `k`, among the 64 quantization groups of a row. -/
abbrev gGrp (k : Fin 8) (g : Fin 8) : Fin 64 := ⟨k.val * 8 + g.val, by omega⟩
/-- The quantization group of inner column `i`. -/
abbrev grpOf (i : Fin 4096) : Fin 64 := ⟨i.val / 64, by omega⟩
/-- The batch and sequence coordinates of flattened row `R`. -/
abbrev rowB (R : Fin 8192) : Fin 4 := ⟨R.val / 2048, by omega⟩
abbrev rowS (R : Fin 8192) : Fin 2048 := ⟨R.val % 2048, Nat.mod_lt _ (by decide)⟩
/-- The flattened row of (b, s). -/
abbrev flat (b : Fin 4) (s : Fin 2048) : Fin 8192 := ⟨b.val * 2048 + s.val, by omega⟩

/-- The inner sum in eight runs of 512. -/
theorem sum_runs {β : Type*} [AddCommMonoid β] (H : Fin 4096 → β) :
    ∑ i, H i = ∑ k : Fin 8, ∑ j : Fin 512, H (gK k j) :=
  Cert.Lib.BlockSum.sum_blocks 8 512 H

/-- The LoRA scaling 1/16 as the programs spell it. -/
abbrev c16 : EReal := Ideal.ofBits .f32 0x3D800000#32

/-! ## On the arrays the kernel's region finds -/

/-- The dequantized weight of output column `C`, inner column `i`, from the TRANSPOSED scale and zero tables. -/
def wgtT (Q : (⟨2, ![4096, 4096]⟩ : Shape).Idx → BitVec 32) (sT zT : (⟨2, ![64, 4096]⟩ : Shape).Idx → EReal)
    (C i : Fin 4096) : EReal :=
  (FloatOps.sitofp (F := Ideal) .f32 (Q (ix2 C i)) - zT (ix2 (grpOf i) C)) * sT (ix2 (grpOf i) C)

/-- The result at flattened row `R`, column `C`, from the flattened activations `Xb`, the transposed tables, the
    projection `XA` = x·Aᵀ and the bias as a one-row matrix. -/
def out2At (Xb : (⟨2, ![8192, 4096]⟩ : Shape).Idx → EReal) (Q : (⟨2, ![4096, 4096]⟩ : Shape).Idx → BitVec 32)
    (sT zT : (⟨2, ![64, 4096]⟩ : Shape).Idx → EReal) (XA : (⟨2, ![8192, 16]⟩ : Shape).Idx → EReal)
    (B : (⟨2, ![4096, 16]⟩ : Shape).Idx → EReal) (b2 : (⟨2, ![1, 4096]⟩ : Shape).Idx → EReal)
    (R : Fin 8192) (C : Fin 4096) : EReal :=
  (∑ i : Fin 4096, Xb (ix2 R i) * wgtT Q sT zT C i + c16 * ∑ r : Fin 16, XA (ix2 R r) * B (ix2 C r)) + b2 (ix2 0 C)

/-! ## On the arguments -/

/-- The result at (b, s, o) from the argument arrays: the formula of this file's header. -/
def specAt (x : (⟨3, ![4, 2048, 4096]⟩ : Shape).Idx → EReal) (Q : (⟨2, ![4096, 4096]⟩ : Shape).Idx → BitVec 32)
    (scales zeros : (⟨2, ![4096, 64]⟩ : Shape).Idx → EReal) (A : (⟨2, ![16, 4096]⟩ : Shape).Idx → EReal)
    (B : (⟨2, ![4096, 16]⟩ : Shape).Idx → EReal) (bias : (⟨1, ![4096]⟩ : Shape).Idx → EReal)
    (b : Fin 4) (s : Fin 2048) (o : Fin 4096) : EReal :=
  (∑ i : Fin 4096, x (ix3 b s i) * ((FloatOps.sitofp (F := Ideal) .f32 (Q (ix2 o i)) - zeros (ix2 o (grpOf i))) * scales (ix2 o (grpOf i)))
    + c16 * ∑ r : Fin 16, (∑ i : Fin 4096, x (ix3 b s i) * A (ix2 r i)) * B (ix2 o r)) + bias (ix1 o)

/-- The whole result array. -/
def spec (x : (⟨3, ![4, 2048, 4096]⟩ : Shape).Idx → EReal) (Q : (⟨2, ![4096, 4096]⟩ : Shape).Idx → BitVec 32)
    (scales zeros : (⟨2, ![4096, 64]⟩ : Shape).Idx → EReal) (A : (⟨2, ![16, 4096]⟩ : Shape).Idx → EReal)
    (B : (⟨2, ![4096, 16]⟩ : Shape).Idx → EReal) (bias : (⟨1, ![4096]⟩ : Shape).Idx → EReal) :
    (⟨3, ![4, 2048, 4096]⟩ : Shape).Idx → EReal :=
  fun y => specAt x Q scales zeros A B bias (y 0) (y 1) (y 2)

/-- The flattened-row form over the host prefix's re-layouts IS the formula: with the activations flattened
    (`hX`), the tables transposed (`hs`, `hz`), the projection computed from the flattened activations (`hXA`) and
    the bias as a row (`hb`), the result at flattened row 2048 b + s is the result at (b, s). -/
theorem out2At_flat (x : (⟨3, ![4, 2048, 4096]⟩ : Shape).Idx → EReal) (Q : (⟨2, ![4096, 4096]⟩ : Shape).Idx → BitVec 32)
    (scales zeros : (⟨2, ![4096, 64]⟩ : Shape).Idx → EReal) (A : (⟨2, ![16, 4096]⟩ : Shape).Idx → EReal)
    (B : (⟨2, ![4096, 16]⟩ : Shape).Idx → EReal) (bias : (⟨1, ![4096]⟩ : Shape).Idx → EReal)
    (Xb : (⟨2, ![8192, 4096]⟩ : Shape).Idx → EReal) (sT zT : (⟨2, ![64, 4096]⟩ : Shape).Idx → EReal)
    (XA : (⟨2, ![8192, 16]⟩ : Shape).Idx → EReal) (b2 : (⟨2, ![1, 4096]⟩ : Shape).Idx → EReal)
    (hX : ∀ (R : Fin 8192) (i : Fin 4096), Xb (ix2 R i) = x (ix3 (rowB R) (rowS R) i))
    (hs : ∀ (g : Fin 64) (C : Fin 4096), sT (ix2 g C) = scales (ix2 C g))
    (hz : ∀ (g : Fin 64) (C : Fin 4096), zT (ix2 g C) = zeros (ix2 C g))
    (hXA : ∀ (R : Fin 8192) (r : Fin 16), XA (ix2 R r) = ∑ i : Fin 4096, x (ix3 (rowB R) (rowS R) i) * A (ix2 r i))
    (hb : ∀ C : Fin 4096, b2 (ix2 0 C) = bias (ix1 C))
    (b : Fin 4) (s : Fin 2048) (o : Fin 4096) :
    out2At Xb Q sT zT XA B b2 (flat b s) o = specAt x Q scales zeros A B bias b s o := by
  have eb : rowB (flat b s) = b := Fin.ext (by show (b.val * 2048 + s.val) / 2048 = b.val; have := s.isLt; omega)
  have es : rowS (flat b s) = s := Fin.ext (by show (b.val * 2048 + s.val) % 2048 = s.val; have := s.isLt; omega)
  unfold out2At specAt wgtT
  simp only [hX, hs, hz, hXA, hb, eb, es]

end Cert.Spec
end
-- ==== Proof.Blocks.lean ====
/-
  Where each window's block sits in its array.

  The grid's point t (0 ≤ t < 128, the three coordinates in row-major order) has row tile t / 32, column tile
  (t / 8) % 4 and reduction step t % 8.  Each window's block at t, read at a local entry, is its array read at the
  entry the window's index map sends it to: the local coordinate plus the block index times the block's extent.
  The scale and zero-point slabs a point uses are rows 8 (t % 8) … 8 (t % 8) + 7 of its [64, 1024] blocks.
-/
import proofs.«135139_j31705448579867_2_alg».proof.Proof.Gen.KernelIdeal.Frame
import proofs.«135139_j31705448579867_2_alg».proof.Proof.Pieces
import proofs.«135139_j31705448579867_2_alg».proof.Proof.Spec
import Idealize.ShloMosaic.Lib.Pipeline.Value
import Idealize.ShloMosaic.Lib.ValueIdx

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Blocks
open Cert.KernelIdeal Cert.KernelIdeal.Gen Cert.Spec

variable (m : (ℓ : Loc nD τ sig) → Buf (Elt Ideal) ℓ)

/-- A grid point's row tile, column tile and reduction step. -/
abbrev ptA (t : Fin cfg0.N) : Fin 4 := ⟨t.val / 32, by have := lt_of_lt_of_eq t.isLt N_0; omega⟩
abbrev ptB (t : Fin cfg0.N) : Fin 4 := ⟨t.val / 8 % 4, by omega⟩
abbrev ptK (t : Fin cfg0.N) : Fin 8 := ⟨t.val % 8, by omega⟩

/-! ## The arrays the region finds, by name

  What the host operations before the pallas_call leave (or the arguments themselves), typed as plain functions on
  their literal index sets. -/

/-- The flattened activations, narrowed for the matmul (an identity on exact values). -/
abbrev Xb (c : Dev nD) : S8192x4096.Idx → EReal := V m c main_v2
/-- The integer codes. -/
abbrev Qw (c : Dev nD) : S4096x4096.Idx → BitVec 32 := V m c main_arg1
/-- The scales and the zero points, transposed to [64, 4096]. -/
abbrev sT (c : Dev nD) : S64x4096.Idx → EReal := V m c main_v3
abbrev zT (c : Dev nD) : S64x4096.Idx → EReal := V m c main_v4
/-- The projection x·Aᵀ of the flattened activations. -/
abbrev XA (c : Dev nD) : S8192x16.Idx → EReal := V m c main_v1
/-- The second low-rank factor. -/
abbrev Bw (c : Dev nD) : S4096x16.Idx → EReal := V m c main_arg5
/-- The bias as a one-row matrix. -/
abbrev b2 (c : Dev nD) : S1x4096.Idx → EReal := V m c main_v5

/-- Window 0's index map over the grid. -/
theorem index0 : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)

/-- Window 0's block at point `t` is the activation tile: rows of row tile t/32, inner columns of run t%8. -/
theorem blk0 (c : Dev nD) (t : Fin cfg0.N) (a : Fin 2048) (b : Fin 512) :
    (iblk m c 0 t : Vec Ideal S2048x512 .bf16) (ix2 a b) = Xb m c (ix2 (gRow (ptA t) a) (gK (ptK t) b)) := by
  have hN : t.val < 128 := lt_of_lt_of_eq t.isLt N_0
  unfold iblk
  rw [View.read_apply]
  show V m c main_v2 _ = V m c main_v2 _
  refine congrArg (V m c main_v2) (funext fun d => Fin.ext ?_)
  match d with
  | ⟨0, _⟩ =>
    show win0_0.index t 0 * 2048 + 1 * a.val = _
    rw [(index0 t).1]
    show t.val / 32 * 2048 + 1 * a.val = t.val / 32 * 2048 + a.val
    omega
  | ⟨1, _⟩ =>
    show win0_0.index t 1 * 512 + 1 * b.val = _
    rw [(index0 t).2]
    show t.val % 8 * 512 + 1 * b.val = t.val % 8 * 512 + b.val
    omega

/-- Window 1's index map over the grid. -/
theorem index1 : ∀ t : Fin cfg0.N, win0_1.index t 0 = t.val / 8 % 4 ∧ win0_1.index t 1 = t.val % 8 :=
  (by decide +kernel : ∀ t : Fin grid0.N, win0_1.index t 0 = t.val / 8 % 4 ∧ win0_1.index t 1 = t.val % 8)

/-- Window 1's block at point `t` is the code tile: output columns of column tile (t/8)%4, inner columns of run t%8. -/
theorem blk1 (c : Dev nD) (t : Fin cfg0.N) (a : Fin 1024) (b : Fin 512) :
    (iblk m c 1 t : Vec Ideal S1024x512 .i32) (ix2 a b) = Qw m c (ix2 (gCol (ptB t) a) (gK (ptK t) b)) := by
  have hN : t.val < 128 := lt_of_lt_of_eq t.isLt N_0
  unfold iblk
  rw [View.read_apply]
  show V m c main_arg1 _ = V m c main_arg1 _
  refine congrArg (V m c main_arg1) (funext fun d => Fin.ext ?_)
  match d with
  | ⟨0, _⟩ =>
    show win0_1.index t 0 * 1024 + 1 * a.val = _
    rw [(index1 t).1]
    show t.val / 8 % 4 * 1024 + 1 * a.val = t.val / 8 % 4 * 1024 + a.val
    omega
  | ⟨1, _⟩ =>
    show win0_1.index t 1 * 512 + 1 * b.val = _
    rw [(index1 t).2]
    show t.val % 8 * 512 + 1 * b.val = t.val % 8 * 512 + b.val
    omega

/-- Window 2's index map over the grid. -/
theorem index2 : ∀ t : Fin cfg0.N, win0_2.index t 0 = 0 ∧ win0_2.index t 1 = t.val / 8 % 4 :=
  (by decide +kernel : ∀ t : Fin grid0.N, win0_2.index t 0 = 0 ∧ win0_2.index t 1 = t.val / 8 % 4)

/-- Window 2's block at point `t` is the transposed scales: all 64 groups, output columns of column tile (t/8)%4. -/
theorem blk2 (c : Dev nD) (t : Fin cfg0.N) (a : Fin 64) (b : Fin 1024) :
    (iblk m c 2 t : Vec Ideal S64x1024 .f32) (ix2 a b) = sT m c (ix2 a (gCol (ptB t) b)) := by
  have hN : t.val < 128 := lt_of_lt_of_eq t.isLt N_0
  unfold iblk
  rw [View.read_apply]
  show V m c main_v3 _ = V m c main_v3 _
  refine congrArg (V m c main_v3) (funext fun d => Fin.ext ?_)
  match d with
  | ⟨0, _⟩ =>
    show win0_2.index t 0 * 64 + 1 * a.val = _
    rw [(index2 t).1]
    show 0 * 64 + 1 * a.val = a.val

    omega
  | ⟨1, _⟩ =>
    show win0_2.index t 1 * 1024 + 1 * b.val = _
    rw [(index2 t).2]
    show t.val / 8 % 4 * 1024 + 1 * b.val = t.val / 8 % 4 * 1024 + b.val
    omega

/-- Window 3's index map over the grid. -/
theorem index3 : ∀ t : Fin cfg0.N, win0_3.index t 0 = 0 ∧ win0_3.index t 1 = t.val / 8 % 4 :=
  (by decide +kernel : ∀ t : Fin grid0.N, win0_3.index t 0 = 0 ∧ win0_3.index t 1 = t.val / 8 % 4)

/-- Window 3's block at point `t` is the transposed zero points, likewise. -/
theorem blk3 (c : Dev nD) (t : Fin cfg0.N) (a : Fin 64) (b : Fin 1024) :
    (iblk m c 3 t : Vec Ideal S64x1024 .f32) (ix2 a b) = zT m c (ix2 a (gCol (ptB t) b)) := by
  have hN : t.val < 128 := lt_of_lt_of_eq t.isLt N_0
  unfold iblk
  rw [View.read_apply]
  show V m c main_v4 _ = V m c main_v4 _
  refine congrArg (V m c main_v4) (funext fun d => Fin.ext ?_)
  match d with
  | ⟨0, _⟩ =>
    show win0_3.index t 0 * 64 + 1 * a.val = _
    rw [(index3 t).1]
    show 0 * 64 + 1 * a.val = a.val

    omega
  | ⟨1, _⟩ =>
    show win0_3.index t 1 * 1024 + 1 * b.val = _
    rw [(index3 t).2]
    show t.val / 8 % 4 * 1024 + 1 * b.val = t.val / 8 % 4 * 1024 + b.val
    omega

/-- Window 4's index map over the grid. -/
theorem index4 : ∀ t : Fin cfg0.N, win0_4.index t 0 = t.val / 32 ∧ win0_4.index t 1 = 0 :=
  (by decide +kernel : ∀ t : Fin grid0.N, win0_4.index t 0 = t.val / 32 ∧ win0_4.index t 1 = 0)

/-- Window 4's block at point `t` is the projected activations: rows of row tile t/32. -/
theorem blk4 (c : Dev nD) (t : Fin cfg0.N) (a : Fin 2048) (b : Fin 16) :
    (iblk m c 4 t : Vec Ideal S2048x16 .f32) (ix2 a b) = XA m c (ix2 (gRow (ptA t) a) b) := by
  have hN : t.val < 128 := lt_of_lt_of_eq t.isLt N_0
  unfold iblk
  rw [View.read_apply]
  show V m c main_v1 _ = V m c main_v1 _
  refine congrArg (V m c main_v1) (funext fun d => Fin.ext ?_)
  match d with
  | ⟨0, _⟩ =>
    show win0_4.index t 0 * 2048 + 1 * a.val = _
    rw [(index4 t).1]
    show t.val / 32 * 2048 + 1 * a.val = t.val / 32 * 2048 + a.val
    omega
  | ⟨1, _⟩ =>
    show win0_4.index t 1 * 16 + 1 * b.val = _
    rw [(index4 t).2]
    show 0 * 16 + 1 * b.val = b.val

    omega

/-- Window 5's index map over the grid. -/
theorem index5 : ∀ t : Fin cfg0.N, win0_5.index t 0 = t.val / 8 % 4 ∧ win0_5.index t 1 = 0 :=
  (by decide +kernel : ∀ t : Fin grid0.N, win0_5.index t 0 = t.val / 8 % 4 ∧ win0_5.index t 1 = 0)

/-- Window 5's block at point `t` is the second low-rank factor: rows of column tile (t/8)%4. -/
theorem blk5 (c : Dev nD) (t : Fin cfg0.N) (a : Fin 1024) (b : Fin 16) :
    (iblk m c 5 t : Vec Ideal S1024x16 .f32) (ix2 a b) = Bw m c (ix2 (gCol (ptB t) a) b) := by
  have hN : t.val < 128 := lt_of_lt_of_eq t.isLt N_0
  unfold iblk
  rw [View.read_apply]
  show V m c main_arg5 _ = V m c main_arg5 _
  refine congrArg (V m c main_arg5) (funext fun d => Fin.ext ?_)
  match d with
  | ⟨0, _⟩ =>
    show win0_5.index t 0 * 1024 + 1 * a.val = _
    rw [(index5 t).1]
    show t.val / 8 % 4 * 1024 + 1 * a.val = t.val / 8 % 4 * 1024 + a.val
    omega
  | ⟨1, _⟩ =>
    show win0_5.index t 1 * 16 + 1 * b.val = _
    rw [(index5 t).2]
    show 0 * 16 + 1 * b.val = b.val

    omega

/-- Window 6's index map over the grid. -/
theorem index6 : ∀ t : Fin cfg0.N, win0_6.index t 0 = 0 ∧ win0_6.index t 1 = t.val / 8 % 4 :=
  (by decide +kernel : ∀ t : Fin grid0.N, win0_6.index t 0 = 0 ∧ win0_6.index t 1 = t.val / 8 % 4)

/-- Window 6's block at point `t` is the bias row: output columns of column tile (t/8)%4. -/
theorem blk6 (c : Dev nD) (t : Fin cfg0.N) (u : Fin 1) (b : Fin 1024) :
    (iblk m c 6 t : Vec Ideal S1x1024 .f32) (ix2 u b) = b2 m c (ix2 u (gCol (ptB t) b)) := by
  have hN : t.val < 128 := lt_of_lt_of_eq t.isLt N_0
  unfold iblk
  rw [View.read_apply]
  show V m c main_v5 _ = V m c main_v5 _
  refine congrArg (V m c main_v5) (funext fun d => Fin.ext ?_)
  match d with
  | ⟨0, _⟩ =>
    show win0_6.index t 0 * 1 + 1 * u.val = _
    rw [(index6 t).1]
    show 0 * 1 + 1 * u.val = u.val

    omega
  | ⟨1, _⟩ =>
    show win0_6.index t 1 * 1024 + 1 * b.val = _
    rw [(index6 t).2]
    show t.val / 8 % 4 * 1024 + 1 * b.val = t.val / 8 % 4 * 1024 + b.val
    omega

/-- The eight-row rectangle's first row at point `t`. -/
theorem rows_off : ∀ t : Fin cfg0.N, k0_off1 (grid0.coords t) 0 = 8 * (t.val % 8) ∧ k0_off1 (grid0.coords t) 1 = 0 :=
  (by decide +kernel : ∀ t : Fin grid0.N, k0_off1 (grid0.coords t) 0 = 8 * (t.val % 8) ∧ k0_off1 (grid0.coords t) 1 = 0)

/-- The slab of a [64, 1024] block that point `t` loads holds the block's groups 8 (t % 8) + g. -/
theorem rows_apply (t : Fin cfg0.N) (x : Vec Ideal S64x1024 .f32) (g : Fin 8) (q : Fin 1024) :
    Pieces.rows (grid0.coords t) x (ix2 g q) = x (ix2 (gGrp (ptK t) g) q) := by
  show x _ = x _
  refine congrArg x (funext fun d => Fin.ext ?_)
  match d with
  | ⟨0, _⟩ =>
    show k0_off1 (grid0.coords t) 0 + 1 * g.val = t.val % 8 * 8 + g.val
    rw [(rows_off t).1]; omega
  | ⟨1, _⟩ =>
    show k0_off1 (grid0.coords t) 1 + 1 * q.val = q.val
    rw [(rows_off t).2]; omega

end Cert.KernelIdeal.Blocks
end
-- ==== Proof.Fold.lean ====
/-
  The accumulator over a run of eight points.

  The 128 grid points fall into sixteen runs of eight consecutive points, one per output tile; along a run only the
  reduction step moves.  The first point of a run leaves in the accumulator zero plus its partial product, every
  later point what the point before left plus its own; so after the run's last point every entry of the accumulator
  is zero plus the eight partial products in turn, and those, read on the arrays the region finds, are the eight
  runs of 512 inner columns of one sum over all 4096.
-/
import proofs.«135139_j31705448579867_2_alg».proof.Proof.Gen.KernelIdeal.Frame
import proofs.«135139_j31705448579867_2_alg».proof.Proof.Pieces
import proofs.«135139_j31705448579867_2_alg».proof.Proof.Payload
import proofs.«135139_j31705448579867_2_alg».proof.Proof.Blocks
import proofs.«135139_j31705448579867_2_alg».proof.Proof.Spec
import Idealize.ShloMosaic.Lib.Pipeline.Value
import Idealize.ShloMosaic.Lib.ValueIdx

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Fold
open Cert.KernelIdeal Cert.KernelIdeal.Gen Cert.Spec Cert.KernelIdeal.Blocks

variable (m : (ℓ : Loc nD τ sig) → Buf (Elt Ideal) ℓ)

/-- What the accumulator holds after point `n`. -/
abbrev accAfter (c : Dev nD) (n : ℕ) (h : n < cfg0.N) : Vec Ideal S2048x1024 .f32 := (outsAt0 m c n h).2

/-- A point's step on the accumulator: its partial product added to `acc`. -/
def stepAt (c : Dev nD) (n : ℕ) (h : n < cfg0.N) (acc : Vec Ideal S2048x1024 .f32) : Vec Ideal S2048x1024 .f32 :=
  Pieces.step (grid0.coords ⟨n, h⟩) (iblk m c 0 ⟨n, h⟩) (iblk m c 1 ⟨n, h⟩) (iblk m c 2 ⟨n, h⟩) (iblk m c 3 ⟨n, h⟩) acc

/-- A run's first point: the step from the zero block. -/
def resetAt (c : Dev nD) (n : ℕ) (h : n < cfg0.N) : Vec Ideal S2048x1024 .f32 :=
  stepAt m c n h (k0_pay1 (F := Ideal))

theorem acc_reset (c : Dev nD) (n : ℕ) (h : n < cfg0.N) (h0 : n % 8 = 0) : accAfter m c n h = resetAt m c n h := by
  have h1 : ¬(⟨n, h⟩ : Fin cfg0.N).val % 8 = 7 := by dsimp only; omega
  have e2 := Pieces.scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩)
  have e1 := outsAt0_A m c ⟨n, h⟩ h0 h1
  rw [Prod.ext_iff] at e1
  obtain ⟨-, e1⟩ := e1
  dsimp only at e1
  exact e1.trans e2

theorem acc_step (c : Dev nD) (n : ℕ) (h : n + 1 < cfg0.N) (h0 : ¬(n + 1) % 8 = 0) :
    accAfter m c (n + 1) h = stepAt m c (n + 1) h (accAfter m c n (Nat.lt_of_succ_lt h)) := by
  by_cases h1 : (n + 1) % 8 = 7
  · have e2 := Pieces.scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (outsAt0 m c n (Nat.lt_of_succ_lt h)).2
    have e1 := outsAt0_C m c ⟨n + 1, h⟩ h0 h1
    rw [Prod.ext_iff] at e1
    obtain ⟨-, e1⟩ := e1
    dsimp only at e1
    exact e1.trans e2
  · have e2 := Pieces.scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (outsAt0 m c n (Nat.lt_of_succ_lt h)).2
    have e1 := outsAt0_B m c ⟨n + 1, h⟩ h0 h1
    rw [Prod.ext_iff] at e1
    obtain ⟨-, e1⟩ := e1
    dsimp only at e1
    exact e1.trans e2

/-- After ANY point the accumulator is the fold over its run so far. -/
theorem acc_fold (c : Dev nD) (t : ℕ) (ht : t < cfg0.N) (h' : 8 * (t / 8) + t % 8 < cfg0.N) :
    accAfter m c t ht = Pipeline.accAt (resetAt m c) (stepAt m c) (8 * (t / 8)) (t % 8) h' :=
  Pipeline.eq_accAt_of_mod (fun n h => accAfter m c n h) 8 (resetAt m c) (stepAt m c)
    (fun n h h0 => acc_reset m c n h h0) (fun n h h0 => acc_step m c n h h0) (by decide) t ht h'

/-! ## At an entry -/

/-- A partial product at entry `y` of the tile: the activation tile's row against the dequantized weight row. -/
def partOf (i : grid0.Coords) (x0 : Vec Ideal S2048x512 .bf16) (x1 : Vec Ideal S1024x512 .i32) (x2 x3 : Vec Ideal S64x1024 .f32)
    (y : S2048x1024.Idx) : EReal :=
  ∑ j : Fin 512, x0 (ix2 (y 0) j) * Payload.weight x1 (Pieces.rows i x2) (Pieces.rows i x3) (y 1) j

/-- Point `n`'s partial product, from the point's blocks. -/
def part (c : Dev nD) (n : ℕ) (h : n < cfg0.N) (y : S2048x1024.Idx) : EReal :=
  partOf (grid0.coords ⟨n, h⟩) (iblk m c 0 ⟨n, h⟩) (iblk m c 1 ⟨n, h⟩) (iblk m c 2 ⟨n, h⟩) (iblk m c 3 ⟨n, h⟩) y

/-- The same for every natural (zero past the grid: never used there). -/
def partN (c : Dev nD) (n : ℕ) (y : S2048x1024.Idx) : EReal := if h : n < cfg0.N then part m c n h y else 0

theorem stepAt_apply (c : Dev nD) (n : ℕ) (h : n < cfg0.N) (acc : Vec Ideal S2048x1024 .f32) (y : S2048x1024.Idx) :
    stepAt m c n h acc y = acc y + partN m c n y := by
  rw [partN, dif_pos h]
  unfold part partOf
  obtain ⟨p, q, rfl⟩ : ∃ (p : Fin 2048) (q : Fin 1024), y = ix2 p q := ⟨y 0, y 1, eq_ix2 y⟩
  exact Payload.partial_apply (iblk m c 0 ⟨n, h⟩) (iblk m c 1 ⟨n, h⟩) (Pieces.rows (grid0.coords ⟨n, h⟩) (iblk m c 2 ⟨n, h⟩))
    (Pieces.rows (grid0.coords ⟨n, h⟩) (iblk m c 3 ⟨n, h⟩)) acc p q

/-- After the last point of a run every entry of the accumulator is zero plus the run's eight partial products. -/
theorem acc_sum (c : Dev nD) (t : ℕ) (ht : t < cfg0.N) (h7 : t % 8 = 7) (y : S2048x1024.Idx) :
    accAfter m c t ht y = 0 + ∑ s ∈ Finset.range 8, partN m c (8 * (t / 8) + s) y := by
  have h' : 8 * (t / 8) + t % 8 < cfg0.N := by rw [Nat.div_add_mod]; exact ht
  rw [acc_fold m c t ht h']
  have key := Pipeline.accAt_add_apply (ι := S2048x1024.Idx) (β := EReal) (resetAt m c) (stepAt m c) (fun _ => (0 : EReal)) (partN m c) (8 * (t / 8)) 7
    (fun h i => (stepAt_apply m c _ h _ i).trans (by rw [Payload.zero_apply]))
    (fun n h acc i _ _ => stepAt_apply m c n h acc i)
    (t % 8) (by omega) h' y
  have e : t % 8 + 1 = 8 := by omega
  rw [key, e]

/-! ## On the arrays the region finds -/

/-- A partial product with the weight's three ingredients spelt out. -/
theorem partOf_apply (i : grid0.Coords) (x0 : Vec Ideal S2048x512 .bf16) (x1 : Vec Ideal S1024x512 .i32) (x2 x3 : Vec Ideal S64x1024 .f32)
    (p : Fin 2048) (q : Fin 1024) :
    partOf i x0 x1 x2 x3 (ix2 p q) = ∑ j : Fin 512, x0 (ix2 p j)
      * ((FloatOps.sitofp (F := Ideal) .f32 (x1 (ix2 q j)) - Pieces.rows i x3 (ix2 (Payload.grp j) q)) * Pieces.rows i x2 (ix2 (Payload.grp j) q)) := rfl

/-- Point `n`'s partial product at (p, q) is the run `n % 8` of the inner sum for its output entry: activations of row
    tile `n / 32`, weights of column tile `(n / 8) % 4` dequantized with the transposed tables. -/
theorem part_global (c : Dev nD) (n : ℕ) (h : n < cfg0.N) (p : Fin 2048) (q : Fin 1024) :
    part m c n h (ix2 p q) = ∑ j : Fin 512, Xb m c (ix2 (gRow (ptA ⟨n, h⟩) p) (gK (ptK ⟨n, h⟩) j))
      * wgtT (Qw m c) (sT m c) (zT m c) (gCol (ptB ⟨n, h⟩) q) (gK (ptK ⟨n, h⟩) j) := by
  unfold part
  refine (partOf_apply (grid0.coords ⟨n, h⟩) (iblk m c 0 ⟨n, h⟩) (iblk m c 1 ⟨n, h⟩) (iblk m c 2 ⟨n, h⟩) (iblk m c 3 ⟨n, h⟩) p q).trans ?_
  refine Finset.sum_congr rfl fun j _ => ?_
  have e0 := blk0 m c ⟨n, h⟩ p j
  have e1 := blk1 m c ⟨n, h⟩ q j
  have e2 := (rows_apply ⟨n, h⟩ (iblk m c 2 ⟨n, h⟩) (Payload.grp j) q).trans (blk2 m c ⟨n, h⟩ (gGrp (ptK ⟨n, h⟩) (Payload.grp j)) q)
  have e3 := (rows_apply ⟨n, h⟩ (iblk m c 3 ⟨n, h⟩) (Payload.grp j) q).trans (blk3 m c ⟨n, h⟩ (gGrp (ptK ⟨n, h⟩) (Payload.grp j)) q)
  have eg : gGrp (ptK ⟨n, h⟩) (Payload.grp j) = grpOf (gK (ptK ⟨n, h⟩) j) :=
    Fin.ext (by show n % 8 * 8 + j.val / 64 = (n % 8 * 512 + j.val) / 64; have := j.isLt; omega)
  rw [eg] at e2 e3
  rw [e0, e1, e2, e3]
  rfl

/-- After the LAST point of a run (`t % 8 = 7`) the accumulator at (p, q) is the whole inner sum over the 4096
    columns, for the output entry of row tile `t / 32` and column tile `(t / 8) % 4`. -/
theorem acc_last (c : Dev nD) (t : Fin cfg0.N) (h7 : t.val % 8 = 7) (p : Fin 2048) (q : Fin 1024) :
    (outsAt0 m c t.val t.isLt).2 (ix2 p q)
      = ∑ i : Fin 4096, Xb m c (ix2 (gRow (ptA t) p) i) * wgtT (Qw m c) (sT m c) (zT m c) (gCol (ptB t) q) i := by
  have hN : t.val < 128 := lt_of_lt_of_eq t.isLt N_0
  have hN' : cfg0.N = 128 := N_0
  refine (acc_sum m c t.val t.isLt h7 (ix2 p q)).trans ?_
  rw [zero_add, Finset.sum_range]
  refine Eq.trans ?_ (sum_runs (fun i => Xb m c (ix2 (gRow (ptA t) p) i) * wgtT (Qw m c) (sT m c) (zT m c) (gCol (ptB t) q) i)).symm
  refine Finset.sum_congr rfl fun s _ => ?_
  have hs : 8 * (t.val / 8) + s.val < cfg0.N := by omega
  rw [partN, dif_pos hs, part_global m c _ hs p q]
  have ea : ptA ⟨8 * (t.val / 8) + s.val, hs⟩ = ptA t := Fin.ext (by show (8 * (t.val / 8) + s.val) / 32 = t.val / 32; omega)
  have eb : ptB ⟨8 * (t.val / 8) + s.val, hs⟩ = ptB t := Fin.ext (by show (8 * (t.val / 8) + s.val) / 8 % 4 = t.val / 8 % 4; omega)
  have ek : ptK ⟨8 * (t.val / 8) + s.val, hs⟩ = s := Fin.ext (by show (8 * (t.val / 8) + s.val) % 8 = s.val; omega)
  rw [ea, eb, ek]

end Cert.KernelIdeal.Fold
end
-- ==== Proof.HostPre.lean ====
/-
  What the host operations before the pallas_call leave, read at an entry.

  The activations are flattened from [4, 2048, 4096] to [8192, 4096] (row R is batch R / 2048, position R % 2048) and
  narrowed for the matmul, which changes no exact value; the projection x·Aᵀ is computed from the flattened
  activations as a sum over the 4096 inner columns; the scale and zero tables are transposed; the bias becomes a
  one-row matrix.  The integer codes and the second low-rank factor are passed as they are.
-/
import proofs.«135139_j31705448579867_2_alg».proof.Proof.Gen.KernelIdeal.Frame
import proofs.«135139_j31705448579867_2_alg».proof.Proof.Blocks
import proofs.«135139_j31705448579867_2_alg».proof.Proof.Spec
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section
open Idealize.ShloMosaic Idealize.ShloMosaic.TcCoe Idealize.SL.Sem Idealize.ShloMosaic.ValueIdx
open Idealize.ShloMosaic.StableHlo

namespace Cert.KernelIdeal.HostPre
open Cert.KernelIdeal Cert.KernelIdeal.Gen Cert.Spec Cert.KernelIdeal.Blocks

variable (m : (ℓ : Loc nD τ sig) → Buf (Elt Ideal) ℓ)

/-! ## The arguments, typed as plain functions -/
abbrev argX (c : Dev nD) : S4x2048x4096.Idx → EReal := m ((c : Thread nD τ).loc main_arg0)
abbrev argQ (c : Dev nD) : S4096x4096.Idx → BitVec 32 := m ((c : Thread nD τ).loc main_arg1)
abbrev argScales (c : Dev nD) : S4096x64.Idx → EReal := m ((c : Thread nD τ).loc main_arg2)
abbrev argZeros (c : Dev nD) : S4096x64.Idx → EReal := m ((c : Thread nD τ).loc main_arg3)
abbrev argA (c : Dev nD) : S16x4096.Idx → EReal := m ((c : Thread nD τ).loc main_arg4)
abbrev argB (c : Dev nD) : S4096x16.Idx → EReal := m ((c : Thread nD τ).loc main_arg5)
abbrev argBias (c : Dev nD) : S4096.Idx → EReal := m ((c : Thread nD τ).loc main_arg6)

/-! ## The host operations' results as terms -/

theorem Xb_eq (c : Dev nD) : Xb m c
    = (truncf (F := Ideal) .bf16 (shapeCast S8192x4096 (argX m c) shapeCasts_S4x2048x4096_S8192x4096 : FVec Ideal S8192x4096 .f32) bitsLt_bf16_f32 : FVec Ideal S8192x4096 .bf16) := by
  show StableHlo.after hostOps0 (fun b => m (c, b)) (Proc.devRef .tc main_v2) = _
  after_results <;> rfl

theorem XA_eq (c : Dev nD) : XA m c
    = Host.dotGeneral (F := Ideal) (φ₁ := .f32) (φ₂ := .f32) dot_S8192x4096_S16x4096_S8192x16_1_1_0_0_n_n none (shapeCast S8192x4096 (argX m c) shapeCasts_S4x2048x4096_S8192x4096) (argA m c) := by
  show StableHlo.after hostOps0 (fun b => m (c, b)) (Proc.devRef .tc main_v1) = _
  after_results <;> rfl

theorem sT_eq (c : Dev nD) : sT m c = transpose S64x4096 [1, 0] (argScales m c) transposes_S4096x64_S64x4096_1_0 := by
  show StableHlo.after hostOps0 (fun b => m (c, b)) (Proc.devRef .tc main_v3) = _
  after_results <;> rfl

theorem zT_eq (c : Dev nD) : zT m c = transpose S64x4096 [1, 0] (argZeros m c) transposes_S4096x64_S64x4096_1_0 := by
  show StableHlo.after hostOps0 (fun b => m (c, b)) (Proc.devRef .tc main_v4) = _
  after_results <;> rfl

theorem b2_eq (c : Dev nD) : b2 m c = shapeCast S1x4096 (argBias m c) shapeCasts_S4096_S1x4096 := by
  show StableHlo.after hostOps0 (fun b => m (c, b)) (Proc.devRef .tc main_v5) = _
  after_results <;> rfl

/-! ## At an entry -/

variable {α : Type}

/-- Flattened row R of the [8192, 4096] view is (R / 2048, R % 2048) of the [4, 2048, 4096] array. -/
theorem flatten_apply (x : S4x2048x4096.Idx → α) (h : S4x2048x4096.ShapeCasts S8192x4096) (R : Fin 8192) (i : Fin 4096) :
    shapeCast S8192x4096 x h (ix2 R i) = x (ix3 (rowB R) (rowS R) i) :=
  shapeCast_apply x h _ _ (by
    rewrite [Shape.rowMajor_val_three, Shape.rowMajor_val_two]
    show (R.val / 2048 * 2048 + R.val % 2048) * 4096 + i.val = R.val * 4096 + i.val
    omega)

theorem Xb_apply (c : Dev nD) (R : Fin 8192) (i : Fin 4096) : Xb m c (ix2 R i) = argX m c (ix3 (rowB R) (rowS R) i) := by
  rw [Xb_eq, truncf_apply, flatten_apply]

theorem sT_apply (c : Dev nD) (g : Fin 64) (C : Fin 4096) : sT m c (ix2 g C) = argScales m c (ix2 C g) := by
  rw [sT_eq]
  exact transpose_apply [1, 0] _ _ _ _ (fun b => match b with | ⟨0, _⟩ => rfl | ⟨1, _⟩ => rfl)

theorem zT_apply (c : Dev nD) (g : Fin 64) (C : Fin 4096) : zT m c (ix2 g C) = argZeros m c (ix2 C g) := by
  rw [zT_eq]
  exact transpose_apply [1, 0] _ _ _ _ (fun b => match b with | ⟨0, _⟩ => rfl | ⟨1, _⟩ => rfl)

theorem b2_apply (c : Dev nD) (C : Fin 4096) : b2 m c (ix2 0 C) = argBias m c (ix1 C) := by
  rw [b2_eq]
  exact shapeCast_apply _ _ _ _ (by
    rewrite [Shape.rowMajor_val_one, Shape.rowMajor_val_two]
    show C.val = 0 * 4096 + C.val
    omega)

theorem lhs0_proj (i : S8192x16.Idx) (k : dot_S8192x4096_S16x4096_S8192x16_1_1_0_0_n_n.contr.Idx) : (dot_S8192x4096_S16x4096_S8192x16_1_1_0_0_n_n.lhsIdx i k 0).val = (i 0).val := by
  unfold DotDims.lhsIdx
  rw [dif_neg (show ¬(0 : Fin S8192x4096.rank) ∈ dot_S8192x4096_S16x4096_S8192x16_1_1_0_0_n_n.lhsBatch by decide), dif_pos (show (0 : Fin S8192x4096.rank) ∈ dot_S8192x4096_S16x4096_S8192x16_1_1_0_0_n_n.lhsNonContracting by decide)]
  rfl
theorem rhs0_proj (i : S8192x16.Idx) (k : dot_S8192x4096_S16x4096_S8192x16_1_1_0_0_n_n.contr.Idx) : (dot_S8192x4096_S16x4096_S8192x16_1_1_0_0_n_n.rhsIdx i k 0).val = (i 1).val := by
  unfold DotDims.rhsIdx
  rw [dif_neg (show ¬(0 : Fin S16x4096.rank) ∈ dot_S8192x4096_S16x4096_S8192x16_1_1_0_0_n_n.rhsBatch by decide), dif_pos (show (0 : Fin S16x4096.rank) ∈ dot_S8192x4096_S16x4096_S8192x16_1_1_0_0_n_n.rhsNonContracting by decide)]
  rfl

/-- The host's projection of a flattened row onto the first low-rank factor's row, as a sum. -/
theorem proj_apply (l : FVec Ideal S8192x4096 .f32) (r : FVec Ideal S16x4096 .f32) (R : Fin 8192) (k : Fin 16) :
    Host.dotGeneral (F := Ideal) dot_S8192x4096_S16x4096_S8192x16_1_1_0_0_n_n none l r (ix2 R k) = ∑ i : Fin 4096, l (ix2 R i) * r (ix2 k i) := by
  simp only [Host.dotGeneral]
  rw [Ideal.dotGeneral_apply, ← Equiv.sum_comp (ValueIdx.contrEquiv1 dot_S8192x4096_S16x4096_S8192x16_1_1_0_0_n_n 4096 rfl rfl).symm]
  refine Finset.sum_congr rfl fun i _ => ?_
  have hk := ValueIdx.contrEquiv1_symm_val dot_S8192x4096_S16x4096_S8192x16_1_1_0_0_n_n 4096 rfl rfl i
  have el : dot_S8192x4096_S16x4096_S8192x16_1_1_0_0_n_n.lhsIdx (ix2 R k) ((ValueIdx.contrEquiv1 dot_S8192x4096_S16x4096_S8192x16_1_1_0_0_n_n 4096 rfl rfl).symm i) = ix2 R i := funext fun a => Fin.ext (by
    match a with
    | ⟨0, _⟩ => exact lhs0_proj _ _
    | ⟨1, _⟩ => exact (dot_S8192x4096_S16x4096_S8192x16_1_1_0_0_n_n.lhsIdx_val_of_single rfl _ _).trans hk)
  have er : dot_S8192x4096_S16x4096_S8192x16_1_1_0_0_n_n.rhsIdx (ix2 R k) ((ValueIdx.contrEquiv1 dot_S8192x4096_S16x4096_S8192x16_1_1_0_0_n_n 4096 rfl rfl).symm i) = ix2 k i := funext fun a => Fin.ext (by
    match a with
    | ⟨0, _⟩ => exact rhs0_proj _ _
    | ⟨1, _⟩ => exact (dot_S8192x4096_S16x4096_S8192x16_1_1_0_0_n_n.rhsIdx_val_of_single rfl _ _).trans hk)
  rw [el, er]

theorem XA_apply (c : Dev nD) (R : Fin 8192) (r : Fin 16) :
    XA m c (ix2 R r) = ∑ i : Fin 4096, argX m c (ix3 (rowB R) (rowS R) i) * argA m c (ix2 r i) := by
  rw [XA_eq, proj_apply]
  refine Finset.sum_congr rfl fun i _ => ?_
  rw [flatten_apply]

theorem Qw_eq (c : Dev nD) : Qw m c = argQ m c := V_main_arg1 m c
theorem Bw_eq (c : Dev nD) : Bw m c = argB m c := V_main_arg5 m c

/-- The flattened-row form over the arrays the region finds is the formula over the arguments. -/
theorem out2At_args (c : Dev nD) (b : Fin 4) (s : Fin 2048) (o : Fin 4096) :
    out2At (Xb m c) (Qw m c) (sT m c) (zT m c) (XA m c) (Bw m c) (b2 m c) (flat b s) o
      = specAt (argX m c) (argQ m c) (argScales m c) (argZeros m c) (argA m c) (argB m c) (argBias m c) b s o := by
  rw [Qw_eq, Bw_eq]
  exact out2At_flat (argX m c) (argQ m c) (argScales m c) (argZeros m c) (argA m c) (argB m c) (argBias m c)
    (Xb m c) (sT m c) (zT m c) (XA m c) (b2 m c) (Xb_apply m c) (sT_apply m c) (zT_apply m c) (XA_apply m c) (b2_apply m c) b s o

end Cert.KernelIdeal.HostPre
end
-- ==== Proof.Final.lean ====
/-
  From the tiles to the output array, and the kernel's run read as a value.

  A run's last point (t % 8 = 7) stores the output tile: at (p, q) the accumulator — by then the whole inner sum for
  the output entry of row tile t / 32, column tile (t / 8) % 4 — plus 1/16 of the rank-16 product of the projected
  activations' row with the second factor's row, plus the bias entry.  Only those sixteen points write a block back,
  and their blocks tile the [8192, 4096] array: the entry (R, C) lies in the block of row tile R / 2048 and column
  tile C / 1024.  So the array ends as one function of the arrays the region found.  The host then views it as
  [4, 2048, 4096], flattened row 2048 b + s becoming (b, s).
-/
import proofs.«135139_j31705448579867_2_alg».proof.Proof.Gen.KernelIdeal.Frame
import proofs.«135139_j31705448579867_2_alg».proof.Proof.Pieces
import proofs.«135139_j31705448579867_2_alg».proof.Proof.Payload
import proofs.«135139_j31705448579867_2_alg».proof.Proof.Blocks
import proofs.«135139_j31705448579867_2_alg».proof.Proof.Fold
import proofs.«135139_j31705448579867_2_alg».proof.Proof.HostPre
import proofs.«135139_j31705448579867_2_alg».proof.Proof.Spec
import Idealize.ShloMosaic.Lib.Pipeline.Value
import Idealize.ShloMosaic.Lib.ValueIdx
import Idealize.ShloMosaic.Lib.StableHlo.Run

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Final
open Cert.KernelIdeal Cert.KernelIdeal.Gen Cert.Spec Cert.KernelIdeal.Blocks

variable (m : (ℓ : Loc nD τ sig) → Buf (Elt Ideal) ℓ) (ρ : Dev nD → PrngReg)

/-- The output array as one function of the arrays the region finds. -/
def outArr (c : Dev nD) : S8192x4096.Idx → EReal := fun y => out2At (Xb m c) (Qw m c) (sT m c) (zT m c) (XA m c) (Bw m c) (b2 m c) (y 0) (y 1)

/-- The output window's index map over the grid. -/
theorem index7 : ∀ t : Fin cfg0.N, win0_7.index t 0 = t.val / 32 ∧ win0_7.index t 1 = t.val / 8 % 4 :=
  (by decide +kernel : ∀ t : Fin grid0.N, win0_7.index t 0 = t.val / 32 ∧ win0_7.index t 1 = t.val / 8 % 4)

/-- The tile a run's last point stores, at (p, q): the result for the entry it covers. -/
theorem tile_last (c : Dev nD) (t : Fin cfg0.N) (h7 : t.val % 8 = 7) (p : Fin 2048) (q : Fin 1024) :
    (outsAt0 m c t.val t.isLt).1 (ix2 p q) = out2At (Xb m c) (Qw m c) (sT m c) (zT m c) (XA m c) (Bw m c) (b2 m c) (gRow (ptA t) p) (gCol (ptB t) q) := by
  have h0 : ¬t.val % 8 = 0 := by omega
  have e2 := Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun hh => h0 ((hcond0_0 t).mp hh)) ((hcond0_1 t).mpr h7) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2
  have e3 := Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun hh => h0 ((hcond0_0 t).mp hh)) ((hcond0_1 t).mpr h7) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2
  have e1 := outsAt0_C m c t h0 h7
  rw [Prod.ext_iff] at e1
  obtain ⟨e1, e1'⟩ := e1
  dsimp only at e1 e1'
  have eacc := (congrFun (e1'.trans e3).symm (ix2 p q)).trans (Fold.acc_last m c t h7 p q)
  rw [e1, e2]
  refine (Payload.epilogue_apply (iblk m c 4 t) (iblk m c 5 t) (iblk m c 6 t) _ p q).trans ?_
  have e4 : ∀ r : Fin 16, (iblk m c 4 t : Vec Ideal S2048x16 .f32) (ix2 p r) = XA m c (ix2 (gRow (ptA t) p) r) := fun r => blk4 m c t p r
  have e5 : ∀ r : Fin 16, (iblk m c 5 t : Vec Ideal S1024x16 .f32) (ix2 q r) = Bw m c (ix2 (gCol (ptB t) q) r) := fun r => blk5 m c t q r
  have e6 := blk6 m c t 0 q
  rw [eacc, e6]
  simp only [e4, e5]
  rfl

/-- The same at any entry of the tile. -/
theorem tile_last' (c : Dev nD) (t : Fin cfg0.N) (h7 : t.val % 8 = 7) (y : S2048x1024.Idx) :
    (outsAt0 m c t.val t.isLt).1 y = out2At (Xb m c) (Qw m c) (sT m c) (zT m c) (XA m c) (Bw m c) (b2 m c) (gRow (ptA t) (y 0)) (gCol (ptB t) (y 1)) := by
  exact (congrArg (outsAt0 m c t.val t.isLt).1 (eq_ix2 y)).trans (tile_last m c t h7 (y 0) (y 1))

/-- WHAT A RUN'S LAST POINT WRITES BACK is its block of the one function: the tile's entry (p, q) sits at row
    2048 (t / 32) + p, column 1024 ((t / 8) % 4) + q of the array. -/
theorem flushed_eq (c : Dev nD) (t : Fin cfg0.N) (hf : (cfg0.win 7).flush t = true) :
    (dats m 0 c).flushed 7 t = ((cfg0.win 7).blk t).view.read (Elt Ideal) (outArr m c) := by
  have h7 : t.val % 8 = 7 := (flush0_7 t).mp hf
  have hN : t.val < 128 := lt_of_lt_of_eq t.isLt N_0
  show (cfg0.win 7).cut (grid0.coords t) ((dats m 0 c).after 7 t) = _
  rw [after0_7]
  funext y
  refine (tile_last' m c t h7 y).trans ?_
  have r0 : (((cfg0.win 7).blk t).view.emb y) 0 = gRow (ptA t) (y 0) := Fin.ext (by
    show win0_7.index t 0 * 2048 + 1 * (y 0).val = t.val / 32 * 2048 + (y 0).val
    rw [(index7 t).1]; omega)
  have r1 : (((cfg0.win 7).blk t).view.emb y) 1 = gCol (ptB t) (y 1) := Fin.ext (by
    show win0_7.index t 1 * 1024 + 1 * (y 1).val = t.val / 8 % 4 * 1024 + (y 1).val
    rw [(index7 t).2]; omega)
  show _ = out2At (Xb m c) (Qw m c) (sT m c) (zT m c) (XA m c) (Bw m c) (b2 m c) ((((cfg0.win 7).blk t).view.emb y) 0) ((((cfg0.win 7).blk t).view.emb y) 1)
  rw [r0, r1]

/-- An entry of the array is in point `t`'s block iff each coordinate is in the block's range on its axis. -/
theorem mem_blk (t : Fin cfg0.N) (i : S8192x4096.Idx) :
    i ∈ ((cfg0.win 7).blk t).view.set ↔ ∀ a : Fin 2, win0_7.index t a * S2048x1024.size a ≤ (i a).val
      ∧ (i a).val < win0_7.index t a * S2048x1024.size a + S2048x1024.size a := by
  show i ∈ ((View.whole main_v6).slice (win0_7.rect t)).set ↔ _
  rw [View.set_slice_whole, Rect.mem_set_unit]
  exact Iff.rfl

/-- Every entry (R, C) of the array is in the block the last point of the run of row tile R / 2048 and column tile
    C / 1024 writes back. -/
theorem cover (i : S8192x4096.Idx) : ∃ t : Fin cfg0.N, (cfg0.win 7).flush t = true ∧ i ∈ ((cfg0.win 7).blk t).view.set := by
  have h0 : (i 0).val < 8192 := (i 0).isLt
  have h1 : (i 1).val < 4096 := (i 1).isLt
  have hN : cfg0.N = 128 := N_0
  have hb : ((i 0).val / 2048 * 4 + (i 1).val / 1024) * 8 + 7 < cfg0.N := by omega
  refine ⟨⟨((i 0).val / 2048 * 4 + (i 1).val / 1024) * 8 + 7, hb⟩, (flush0_7 _).mpr (by show (((i 0).val / 2048 * 4 + (i 1).val / 1024) * 8 + 7) % 8 = 7; omega), ?_⟩
  rw [mem_blk]
  intro a
  match a with
  | ⟨0, _⟩ =>
    show win0_7.index ⟨((i 0).val / 2048 * 4 + (i 1).val / 1024) * 8 + 7, hb⟩ 0 * 2048 ≤ (i 0).val
      ∧ (i 0).val < win0_7.index ⟨((i 0).val / 2048 * 4 + (i 1).val / 1024) * 8 + 7, hb⟩ 0 * 2048 + 2048
    rw [(index7 _).1]
    show (((i 0).val / 2048 * 4 + (i 1).val / 1024) * 8 + 7) / 32 * 2048 ≤ (i 0).val
      ∧ (i 0).val < (((i 0).val / 2048 * 4 + (i 1).val / 1024) * 8 + 7) / 32 * 2048 + 2048
    omega
  | ⟨1, _⟩ =>
    show win0_7.index ⟨((i 0).val / 2048 * 4 + (i 1).val / 1024) * 8 + 7, hb⟩ 1 * 1024 ≤ (i 1).val
      ∧ (i 1).val < win0_7.index ⟨((i 0).val / 2048 * 4 + (i 1).val / 1024) * 8 + 7, hb⟩ 1 * 1024 + 1024
    rw [(index7 _).2]
    show (((i 0).val / 2048 * 4 + (i 1).val / 1024) * 8 + 7) / 8 % 4 * 1024 ≤ (i 1).val
      ∧ (i 1).val < (((i 0).val / 2048 * 4 + (i 1).val / 1024) * 8 + 7) / 8 % 4 * 1024 + 1024
    omega

/-- THE ARRAY after the run. -/
theorem final (c : Dev nD) : (dats m 0 c).arrAt 7 cfg0.N = outArr m c :=
  (dats m 0 c).arrAt_eq_of_cover 7 (outArr m c) (flushed_eq m c) cover

/-- The host's last operation views the array as [4, 2048, 4096]. -/
theorem result_eq (c : Dev nD) : Pipeline.afterTail₀ cfgs (dats m) 0 (V0 m) [hostOps1] c main_v7
    = shapeCast S4x2048x4096 (outArr m c) shapeCasts_S8192x4096_S4x2048x4096 := by
  unfold Pipeline.afterTail₀
  show StableHlo.after hostOps1 _ (Proc.devRef .tc main_v7) = _
  after_results
  have hw := (Pipeline.withArrays_arr spec0 launch0.win.arr_inj c (V0 m c) (fun w => (dats m 0 c).arrAt w cfg0.N) 7).trans (final m c)
  funext i
  show shapeCast S4x2048x4096 (Pipeline.withArrays spec0 c (V0 m c) (fun w => (dats m 0 c).arrAt w cfg0.N) (Proc.devRef .tc main_v6)) shapeCasts_S8192x4096_S4x2048x4096 i = _
  rw [hw]

/-- Viewed as [4, 2048, 4096], the array is the formula on the argument arrays. -/
theorem result_spec (c : Dev nD) :
    shapeCast S4x2048x4096 (outArr m c) shapeCasts_S8192x4096_S4x2048x4096 = spec (HostPre.argX m c) (HostPre.argQ m c) (HostPre.argScales m c) (HostPre.argZeros m c) (HostPre.argA m c) (HostPre.argB m c) (HostPre.argBias m c) := by
  funext y
  obtain ⟨b, s, o, rfl⟩ : ∃ (b : Fin 4) (s : Fin 2048) (o : Fin 4096), y = ix3 b s o := ⟨y 0, y 1, y 2, eq_ix3 y⟩
  refine (shapeCast_apply (outArr m c) shapeCasts_S8192x4096_S4x2048x4096 (ix3 b s o) (ix2 (flat b s) o) (by
    rewrite [Shape.rowMajor_val_two, Shape.rowMajor_val_three]
    rfl)).trans ?_
  exact HostPre.out2At_args m c b s o

/-- THE RUN, READ: every weakly fair execution of the idealized kernel's @main terminates with the result at the
    formula on the argument arrays, and the arguments unchanged. -/
theorem run : θ_run defs (onTc (τ := τ) (main (F := Ideal))) ⟨m, fun _ => 0, ρ⟩ (fun r => ∀ c : Dev nD,
      r.2.mem ((c.tc : Thread nD τ).loc main_v7) = spec (HostPre.argX m c) (HostPre.argQ m c) (HostPre.argScales m c) (HostPre.argZeros m c) (HostPre.argA m c) (HostPre.argB m c) (HostPre.argBias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v7 (Pipeline.mem_restRefs_of main_v7 (by decide) (by decide))).trans ((result_eq m c).trans (result_spec m c)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩) (run_main m ρ)

end Cert.KernelIdeal.Final
end
-- ==== Proof.RefIsSpec.lean ====
/-
  The reference computes the formula.

  Stage by stage, at the result entry (b, s, o): the codes converted, viewed as [4096, 64, 64] and back (entry (o, i)
  of the dequantized matrix uses the code at (o, i) and group i / 64 of row o), the three contractions as sums over
  the inner columns and the rank, the scaling by the word 0x3D800000, the bias broadcast over the batch and
  sequence axes — the composed index maps are identified with (b, s, i), (o, i), (o, i / 64), (r, i), (o, r) and o by
  arithmetic on the literal extents; what remains is the specification's own expression.
-/
import proofs.«135139_j31705448579867_2_alg».proof.Proof.Gen.ReferenceIdeal.Read
import proofs.«135139_j31705448579867_2_alg».proof.Proof.Spec
import Idealize.ShloMosaic.Lib.ValueIdx

noncomputable section
open Idealize.ShloMosaic Idealize.ShloMosaic.ValueIdx

namespace Cert.ReferenceIdeal.RefValue
open Cert.ReferenceIdeal Cert.ReferenceIdeal.Read Cert.Spec

theorem ref_is_spec (x0 : S4x2048x4096.Idx → EReal) (x1 : S4096x4096.Idx → BitVec 32) (x2 x3 : S4096x64.Idx → EReal)
    (x4 : S16x4096.Idx → EReal) (x5 : S4096x16.Idx → EReal) (x6 : S4096.Idx → EReal) :
    val_main_v17 (F := Ideal) x0 x1 x2 x3 x4 x5 x6 = spec x0 x1 x2 x3 x4 x5 x6 := by
  funext y
  obtain ⟨b, s, o, rfl⟩ : ∃ (b : Fin 4) (s : Fin 2048) (o : Fin 4096), y = ix3 b s o := ⟨y 0, y 1, y 2, eq_ix3 y⟩
  have ho := o.isLt
  rw [val_main_v17_apply, val_main_v14_apply, val_main_v13_apply, val_main_v9_apply, val_main_v12_apply, val_main_cst_apply,
    val_main_v11_apply, val_main_v16_apply, val_main_v15_apply]
  simp only [val_main_v8_apply, val_main_v7_apply, val_main_v4_apply, val_main_v1_apply, val_main_v0_apply, val_main_v3_apply,
    val_main_v2_apply, val_main_v6_apply, val_main_v5_apply, val_main_v10_apply]
  have e1 : ∀ k : Fin 4096, lidx_main_v9 (ix3 b s o) k = ix3 b s k := fun k => funext fun a => Fin.ext (by
    match a with | ⟨0, _⟩ => rfl | ⟨1, _⟩ => rfl | ⟨2, _⟩ => rfl)
  have e2 : ∀ k : Fin 4096, idx_main_v1 (idx_main_v8 (ridx_main_v9 (ix3 b s o) k)) = ix2 o k := fun k => funext fun a => Fin.ext (by
    have hk := k.isLt
    match a with
    | ⟨0, _⟩ => show (((o.val * 4096 + k.val) / 4096 * 64 + (o.val * 4096 + k.val) / 64 % 64) * 64 + (o.val * 4096 + k.val) % 64) / 4096 = o.val; omega
    | ⟨1, _⟩ => show (((o.val * 4096 + k.val) / 4096 * 64 + (o.val * 4096 + k.val) / 64 % 64) * 64 + (o.val * 4096 + k.val) % 64) % 4096 = k.val; omega)
  have e3 : ∀ k : Fin 4096, idx_main_v2 (idx_main_v3 (idx_main_v8 (ridx_main_v9 (ix3 b s o) k))) = ix2 o (grpOf k) := fun k => funext fun a => Fin.ext (by
    have hk := k.isLt
    match a with
    | ⟨0, _⟩ => show (o.val * 4096 + k.val) / 4096 = o.val; omega
    | ⟨1, _⟩ => show (o.val * 4096 + k.val) / 64 % 64 = k.val / 64; omega)
  have e4 : ∀ k : Fin 4096, idx_main_v5 (idx_main_v6 (idx_main_v8 (ridx_main_v9 (ix3 b s o) k))) = ix2 o (grpOf k) := fun k => funext fun a => Fin.ext (by
    have hk := k.isLt
    match a with
    | ⟨0, _⟩ => show (o.val * 4096 + k.val) / 4096 = o.val; omega
    | ⟨1, _⟩ => show (o.val * 4096 + k.val) / 64 % 64 = k.val / 64; omega)
  have e5 : ∀ (r : Fin 16) (k : Fin 4096), lidx_main_v10 (lidx_main_v11 (ix3 b s o) r) k = ix3 b s k := fun r k => funext fun a => Fin.ext (by
    match a with | ⟨0, _⟩ => rfl | ⟨1, _⟩ => rfl | ⟨2, _⟩ => rfl)
  have e6 : ∀ (r : Fin 16) (k : Fin 4096), ridx_main_v10 (lidx_main_v11 (ix3 b s o) r) k = ix2 r k := fun r k => funext fun a => Fin.ext (by
    match a with | ⟨0, _⟩ => rfl | ⟨1, _⟩ => rfl)
  have e7 : ∀ r : Fin 16, ridx_main_v11 (ix3 b s o) r = ix2 o r := fun r => funext fun a => Fin.ext (by
    match a with | ⟨0, _⟩ => rfl | ⟨1, _⟩ => rfl)
  have e8 : idx_main_v15 (idx_main_v16 (ix3 b s o)) = ix1 o := funext fun a => Fin.ext (by
    match a with | ⟨0, _⟩ => rfl)
  simp only [e1, e2, e3, e4, e5, e6, e7, e8]
  rfl

end Cert.ReferenceIdeal.RefValue
end
-- ==== Proof.lean ====
/-
  A 4-bit-dequantized linear layer with a rank-16 update and a bias, fused into one tiled kernel, against its plain
  reference: with x : [4, 2048, 4096], integer codes Q : [4096, 4096], per-group scales and zero points [4096, 64],
  low-rank factors A : [16, 4096], B : [4096, 16] and bias : [4096], both programs end, on the extended reals, at

      ( Σᵢ x(b,s,i) · ((Q(o,i) − zero(o, i/64)) · scale(o, i/64))  +  1/16 · Σᵣ (Σᵢ x(b,s,i) · A(r,i)) · B(o,r) )  +  bias(o).

  The reference computes exactly this expression.  The kernel flattens the rows, transposes the tables and projects
  x onto A on the host, then sweeps a 4 × 4 × 8 grid: the innermost coordinate walks the 4096 inner columns in eight
  runs of 512, accumulating the partial products of an output tile in a scratch buffer from zero, and at the eighth
  adds the low-rank term and the bias and stores the tile.  The two differ by the tiling, by re-layouts, by the
  narrowing of the matmul's operands (the identity on exact values) and by the grouping of the inner sum into eight
  runs — commutativity and associativity of addition only, so no finiteness of the inputs is used.  The ideal pass
  rewrote nothing, so the idealization claim is trivial; the three frames are the generated ones (the reference's
  being its generated run with the result dropped).
-/
import proofs.«135139_j31705448579867_2_alg».proof.Defs
import proofs.«135139_j31705448579867_2_alg».proof.Proof.Gen.Kernel
import proofs.«135139_j31705448579867_2_alg».proof.Proof.Gen.Kernel.Skeleton
import proofs.«135139_j31705448579867_2_alg».proof.Proof.Gen.Kernel.Launch
import proofs.«135139_j31705448579867_2_alg».proof.Proof.Gen.Kernel.Points
import proofs.«135139_j31705448579867_2_alg».proof.Proof.Gen.Kernel.Frame
import proofs.«135139_j31705448579867_2_alg».proof.Proof.Gen.KernelIdeal
import proofs.«135139_j31705448579867_2_alg».proof.Proof.Gen.KernelIdeal.Skeleton
import proofs.«135139_j31705448579867_2_alg».proof.Proof.Gen.KernelIdeal.Launch
import proofs.«135139_j31705448579867_2_alg».proof.Proof.Gen.KernelIdeal.Points
import proofs.«135139_j31705448579867_2_alg».proof.Proof.Gen.KernelIdeal.Frame
import proofs.«135139_j31705448579867_2_alg».proof.Proof.Gen.ReferenceIdeal
import proofs.«135139_j31705448579867_2_alg».proof.Proof.Gen.ReferenceIdeal.Run
import proofs.«135139_j31705448579867_2_alg».proof.Proof.Gen.ReferenceIdeal.Read
import proofs.«135139_j31705448579867_2_alg».proof.Proof.Gen.Pre_finite_inputs
import proofs.«135139_j31705448579867_2_alg».proof.Proof.Final
import proofs.«135139_j31705448579867_2_alg».proof.Proof.RefIsSpec
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, from memories agreeing on the arguments, end at the formula of the arguments: the
    kernel by its run read through the tiling, the reference by its run read stage by stage. -/
theorem algebraic : Cert.algebraic_KernelIdeal_ReferenceIdeal := by
  intro m ρ m' ρ' _ hagree
  refine ⟨fun c => Cert.Spec.spec (Cert.KernelIdeal.HostPre.argX m c) (Cert.KernelIdeal.HostPre.argQ m c)
    (Cert.KernelIdeal.HostPre.argScales m c) (Cert.KernelIdeal.HostPre.argZeros m c) (Cert.KernelIdeal.HostPre.argA m c)
    (Cert.KernelIdeal.HostPre.argB m c) (Cert.KernelIdeal.HostPre.argBias m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_is_spec, (hagree c).1, (hagree c).2.1,
    (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
